-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x800000 : Shape := ⟨2, ![2, 800000]⟩
abbrev S64x64 : Shape := ⟨2, ![64, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S64x40 1) : IVec S_ 1 :=
  let main_c_5 : IVec S_ 1 := constantI S_ 1 1#1
  let main_v17 : IVec S_ 1 := (fun x v => Host.reduce IntOp.andi x v reducesTo_S64x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x64 .f32) (main_arg1 : IVec S2x800000 32) (main_arg2 : FVec F S64x64 .f32) (main_arg3 : FVec F S64 .f32) (main_arg4 : FVec F S64x40 .f32) (main_arg5 : FVec F S40 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x40 .f32 := Host.absf main_arg4
  let main_cst_4 : FVec F S_ .f32 := constant S_ .f32 0x7F800000#32
  let main_v15 : FVec F S64x40 .f32 := broadcastInDim S64x40 ![] bcast_S_S64x40 main_cst_4
  let main_v16 : IVec S64x40 1 := cmpf .olt main_v14 main_v15
  fn_part1 (F := F) main_arg5 main_v13 main_v16
-- ==== Kernel.lean ====
abbrev S100000x64 : Shape := ⟨2, ![100000, 64]⟩
abbrev S2x800000 : Shape := ⟨2, ![2, 800000]⟩
abbrev S64x64 : Shape := ⟨2, ![64, 64]⟩
abbrev S64 : Shape := ⟨1, ![64]⟩
abbrev S64x40 : Shape := ⟨2, ![64, 40]⟩
abbrev S40 : Shape := ⟨1, ![40]⟩
abbrev S1x800000 : Shape := ⟨2, ![1, 800000]⟩
abbrev S800000 : Shape := ⟨1, ![800000]⟩
abbrev S_ : Shape := ⟨0, ![]⟩
abbrev S100000 : Shape := ⟨1, ![100000]⟩
abbrev S800000x1 : Shape := ⟨2, ![800000, 1]⟩
abbrev S100000x1 : Shape := ⟨2, ![100000, 1]⟩
abbrev S1x64 : Shape := ⟨2, ![1, 64]⟩
abbrev S1x40 : Shape := ⟨2, ![1, 40]⟩
abbrev S10000x64 : Shape := ⟨2, ![10000, 64]⟩
abbrev S800000x64 : Shape := ⟨2, ![800000, 64]⟩
abbrev S10000x1 : Shape := ⟨2, ![10000, 1]⟩
abbrev S100000x40 : Shape := ⟨2, ![100000, 40]⟩
abbrev S10000x40 : Shape := ⟨2, ![10000, 40]⟩
abbrev S800000x40 : Shape := ⟨2, ![800000, 40]⟩
abbrev S10000 : Shape := ⟨1, ![10000]⟩

abbrev nBuf : Space → Nat
  | .hbm => 78
  | .vmem => 28
  | .smem => 0
  | _ => 0

abbrev bufTy : (tb : Table) → Fin (tcTables nBuf tb) → BufTy
  | .hbm, ⟨0, _⟩ => ⟨S100000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S64x40, .f32⟩
  | .hbm, ⟨5, _⟩ => ⟨S40, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .f32⟩
  | .hbm, ⟨11, _⟩ => ⟨S800000, .f32⟩
  | .hbm, ⟨12, _⟩ => ⟨S_, .f32⟩
  | .hbm, ⟨13, _⟩ => ⟨S100000, .f32⟩
  | .hbm, ⟨14, _⟩ => ⟨S800000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S100000x1, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000, .f32⟩
  | .hbm, ⟨40, _⟩ => ⟨S800000, .f32⟩
  | .hbm, ⟨41, _⟩ => ⟨S800000x1, .f32⟩
  | .hbm, ⟨42, _⟩ => ⟨S1x64, .f32⟩
  | .hbm, ⟨43, _⟩ => ⟨S1x40, .f32⟩
  | .hbm, ⟨44, _⟩ => ⟨S100000x64, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x64, .f32⟩
  | .hbm, ⟨54, _⟩ => ⟨S800000x64, .f32⟩
  | .hbm, ⟨55, _⟩ => ⟨S800000x64, .f32⟩
  | .hbm, ⟨56, _⟩ => ⟨S_, .f32⟩
  | .hbm, ⟨57, _⟩ => ⟨S100000x64, .f32⟩
  | .hbm, ⟨58, _⟩ => ⟨S800000x1, .i32⟩
  | .hbm, ⟨59, _⟩ => ⟨S100000x64, .f32⟩
  | .hbm, ⟨60, _⟩ => ⟨S100000x64, .f32⟩
  | .hbm, ⟨61, _⟩ => ⟨S100000x40, .f32⟩
  | .hbm, ⟨62, _⟩ => ⟨S_, .i32⟩
  | .hbm, ⟨63, _⟩ => ⟨S800000, .i32⟩
  | .hbm, ⟨64, _⟩ => ⟨S800000, .i1⟩
  | .hbm, ⟨65, _⟩ => ⟨S_, .i32⟩
  | .hbm, ⟨66, _⟩ => ⟨S800000, .i32⟩
  | .hbm, ⟨67, _⟩ => ⟨S800000, .i32⟩
  | .hbm, ⟨68, _⟩ => ⟨S800000, .i32⟩
  | .hbm, ⟨69, _⟩ => ⟨S800000x1, .i32⟩
  | .hbm, ⟨70, _⟩ => ⟨S800000x40, .f32⟩
  | .hbm, ⟨71, _⟩ => ⟨S800000x40, .f32⟩
  | .hbm, ⟨72, _⟩ => ⟨S800000x40, .f32⟩
  | .hbm, ⟨73, _⟩ => ⟨S_, .f32⟩
  | .hbm, ⟨74, _⟩ => ⟨S100000x40, .f32⟩
  | .hbm, ⟨75, _⟩ => ⟨S800000x1, .i32⟩
  | .hbm, ⟨76, _⟩ => ⟨S100000x40, .f32⟩
  | .hbm, ⟨77, _⟩ => ⟨S100000x40, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x1, .f32⟩
  | .local _ .vmem, ⟨10, _⟩ => ⟨S10000x1, .f32⟩
  | .local _ .vmem, ⟨11, _⟩ => ⟨S1x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S64x40, .f32⟩
  | .local _ .vmem, ⟨17, _⟩ => ⟨S10000x40, .f32⟩
  | .local _ .vmem, ⟨18, _⟩ => ⟨S10000x40, .f32⟩
  | .local _ .vmem, ⟨19, _⟩ => ⟨S10000x40, .f32⟩
  | .local _ .vmem, ⟨20, _⟩ => ⟨S10000x40, .f32⟩
  | .local _ .vmem, ⟨21, _⟩ => ⟨S10000x40, .f32⟩
  | .local _ .vmem, ⟨22, _⟩ => ⟨S10000x40, .f32⟩
  | .local _ .vmem, ⟨23, _⟩ => ⟨S10000x1, .f32⟩
  | .local _ .vmem, ⟨24, _⟩ => ⟨S10000x1, .f32⟩
  | .local _ .vmem, ⟨25, _⟩ => ⟨S1x40, .f32⟩
  | .local _ .vmem, ⟨26, _⟩ => ⟨S10000x40, .f32⟩
  | .local _ .vmem, ⟨27, _⟩ => ⟨S10000x40, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c_5 : Ref sig .tc := ⟨.hbm, 45, rfl⟩
abbrev main_v32 : Ref sig .tc := ⟨.hbm, 46, rfl⟩
abbrev main_v33 : Ref sig .tc := ⟨.hbm, 47, rfl⟩
abbrev main_c_6 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_7 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_c_8 : Ref sig .tc := ⟨.hbm, 62, rfl⟩
abbrev main_v46 : Ref sig .tc := ⟨.hbm, 63, rfl⟩
abbrev main_v47 : Ref sig .tc := ⟨.hbm, 64, rfl⟩
abbrev main_c_9 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_10 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x40 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S10000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x40 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S10000x40 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S100000 : S_.BroadcastsInDim S100000 (![] : Fin 0 → Fin S100000.rank)
  bcast_S800000_S800000x1_0 : S800000.BroadcastsInDim S800000x1 (![0] : Fin 1 → Fin S800000x1.rank)
  shapeCasts_S100000_S100000x1 : S100000.ShapeCasts S100000x1
  shapeCasts_S800000_S800000x1 : S800000.ShapeCasts S800000x1
  shapeCasts_S64_S1x64 : S64.ShapeCasts S1x64
  shapeCasts_S40_S1x40 : S40.ShapeCasts S1x40
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S800000x1_S800000x64_0_1 : S800000x1.BroadcastsInDim S800000x64 (![0, 1] : Fin 2 → Fin S800000x64.rank)
  bcast_S_S100000x64 : S_.BroadcastsInDim S100000x64 (![] : Fin 0 → Fin S100000x64.rank)
  shapeCasts_S10000x64_S10000x64 : S10000x64.ShapeCasts S10000x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S10000x1_S10000x64 : S10000x1.Broadcasts S10000x64
  broadcasts_S1x64_S10000x64 : S1x64.Broadcasts S10000x64
  inb_S64x40_S64x40_0_0 : ∀ a, (![0, 0] : Fin 2 → Nat) a + S64x40.size a ≤ S64x40.size a
  h_S64x40 : 0 < S64x40.numel
  inb_S10000x40_S10000x40_0_0 : ∀ a, (![0, 0] : Fin 2 → Nat) a + S10000x40.size a ≤ S10000x40.size a
  h_S10000x40 : 0 < S10000x40.numel
  bcast_S800000x1_S800000x40_0_1 : S800000x1.BroadcastsInDim S800000x40 (![0, 1] : Fin 2 → Fin S800000x40.rank)
  bcast_S_S100000x40 : S_.BroadcastsInDim S100000x40 (![] : Fin 0 → Fin S100000x40.rank)
  shapeCasts_S10000x40_S10000x40 : S10000x40.ShapeCasts S10000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S10000x1_S10000x40 : S10000x1.Broadcasts S10000x40
  broadcasts_S1x40_S10000x40 : S1x40.Broadcasts S10000x40
  reduces_S10000x40_S10000 : S10000x40.Reduces [1] S10000
  shapeCasts_S10000_S10000x1 : S10000.ShapeCasts S10000x1
  scatter_S100000_S800000x1_S800000_n_0_0_1_wf : ScatterDims.WF S100000 S800000x1 S800000 [] [0] [0] 1
  gather_S100000_S800000x1_S800000_n_0_n_n_0_1_1_wf : GatherDims.WF S100000 S800000x1 S800000 [] [0] [] [0] [] 1 ![1]
  dot_S10000x64_S64x64_S10000x64_1_0_0_1_n_n_wf : DotDims.WF S10000x64 S64x64 S10000x64 [1] [0] [0] [1] [] []
  gather_S100000x64_S800000x1_S800000x64_1_0_n_n_0_1_164_wf : GatherDims.WF S100000x64 S800000x1 S800000x64 [1] [0] [] [0] [] 1 ![1, 64]
  scatter_S100000x64_S800000x1_S800000x64_1_0_0_1_wf : ScatterDims.WF S100000x64 S800000x1 S800000x64 [1] [0] [0] 1
  dot_S10000x64_S64x40_S10000x40_1_0_0_1_n_n_wf : DotDims.WF S10000x64 S64x40 S10000x40 [1] [0] [0] [1] [] []
  gather_S100000x40_S800000x1_S800000x40_1_0_n_n_0_1_140_wf : GatherDims.WF S100000x40 S800000x1 S800000x40 [1] [0] [] [0] [] 1 ![1, 40]
  scatter_S100000x40_S800000x1_S800000x40_1_0_0_1_wf : ScatterDims.WF S100000x40 S800000x1 S800000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S100000x1.size a
  hwx1_2 : ∀ i : grid1.Coords, EltTy.bits .f32 = 32 ∨ (Rect.block (s := S100000x1) S10000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S100000x64.size a
  hwx1_4 : ∀ i : grid1.Coords, EltTy.bits .f32 = 32 ∨ (Rect.block (s := S100000x64) S10000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x40.size a ≤ S64x40.size a
  hwx2_1 : ∀ i : grid2.Coords, EltTy.bits .f32 = 32 ∨ (Rect.block (s := S64x40) S64x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x40.size a ≤ S100000x40.size a
  hwx2_2 : ∀ i : grid2.Coords, EltTy.bits .f32 = 32 ∨ (Rect.block (s := S100000x40) S10000x40.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x40.size a ≤ S100000x40.size a
  hwx3_0 : ∀ i : grid3.Coords, EltTy.bits .f32 = 32 ∨ (Rect.block (s := S100000x40) S10000x40.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x40.size a ≤ S100000x40.size a
  hwx3_1 : ∀ i : grid3.Coords, EltTy.bits .f32 = 32 ∨ (Rect.block (s := S100000x40) S10000x40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x1.size a ≤ S100000x1.size a
  hwx3_2 : ∀ i : grid3.Coords, EltTy.bits .f32 = 32 ∨ (Rect.block (s := S100000x1) S10000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x40.size a ≤ S1x40.size a
  hwx3_3 : ∀ i : grid3.Coords, EltTy.bits .f32 = 32 ∨ (Rect.block (s := S1x40) S1x40.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S10000x40.size a ≤ S100000x40.size a
  hwx3_4 : ∀ i : grid3.Coords, EltTy.bits .f32 = 32 ∨ (Rect.block (s := S100000x40) S10000x40.size (cc3_transform_4 i) (hinb3_4 i)).WholeWords (EltTy.packing .f32)

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000_S800000x1_S800000_n_0_n_n_0_1_1 : GatherDims S100000 S800000x1 S800000 where
  offsetDims := []
  collapsedSliceDims := [0]
  operandBatchingDims := []
  startIndicesBatchingDims := []
  startIndexMap := [0]
  indexVectorDim := 1
  sliceSizes := ![1]
  wf := gather_S100000_S800000x1_S800000_n_0_n_n_0_1_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf
def dot_S10000x64_S64x40_S10000x40_1_0_0_1_n_n : DotDims S10000x64 S64x40 S10000x40 where
  lhsContracting := [1]
  rhsContracting := [0]
  lhsNonContracting := [0]
  rhsNonContracting := [1]
  lhsBatch := []
  rhsBatch := []
  wf := dot_S10000x64_S64x40_S10000x40_1_0_0_1_n_n_wf
def gather_S100000x40_S800000x1_S800000x40_1_0_n_n_0_1_140 : GatherDims S100000x40 S800000x1 S800000x40 where
  offsetDims := [1]
  collapsedSliceDims := [0]
  operandBatchingDims := []
  startIndicesBatchingDims := []
  startIndexMap := [0]
  indexVectorDim := 1
  sliceSizes := ![1, 40]
  wf := gather_S100000x40_S800000x1_S800000x40_1_0_n_n_0_1_140_wf
def scatter_S100000x40_S800000x1_S800000x40_1_0_0_1 : ScatterDims S100000x40 S800000x1 S800000x40 where
  updateWindowDims := [1]
  insertedWindowDims := [0]
  scatterDimsToOperandDims := [0]
  indexVectorDim := 1
  wf := scatter_S100000x40_S800000x1_S800000x40_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v29) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S10000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v44) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S10000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v57) S10000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v45) S10000x40.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v12) S10000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v30) S1x40.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v58) S10000x40.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x800000 : Shape := ⟨2, ![2, 800000]⟩
abbrev S64x64 : Shape := ⟨2, ![64, 64]⟩
abbrev S64 : Shape := ⟨1, ![64]⟩
abbrev S64x40 : Shape := ⟨2, ![64, 40]⟩
abbrev S40 : Shape := ⟨1, ![40]⟩
abbrev S1x800000 : Shape := ⟨2, ![1, 800000]⟩
abbrev S800000 : Shape := ⟨1, ![800000]⟩
abbrev S_ : Shape := ⟨0, ![]⟩
abbrev S100000 : Shape := ⟨1, ![100000]⟩
abbrev S800000x1 : Shape := ⟨2, ![800000, 1]⟩
abbrev S800000x64 : Shape := ⟨2, ![800000, 64]⟩
abbrev S100000x1 : Shape := ⟨2, ![100000, 1]⟩
abbrev S1x64 : Shape := ⟨2, ![1, 64]⟩
abbrev S100000x40 : Shape := ⟨2, ![100000, 40]⟩
abbrev S800000x40 : Shape := ⟨2, ![800000, 40]⟩
abbrev S1x40 : Shape := ⟨2, ![1, 40]⟩

abbrev nBuf : Space → Nat
  | .hbm => 136
  | .vmem => 0
  | .smem => 0
  | _ => 0

abbrev hbmTy0_0 (i : Nat) : BufTy := match i % 128 with
  | 0 => ⟨S100000x64, .f32⟩
  | 1 => ⟨S2x800000, .i32⟩
  | 2 => ⟨S64x64, .f32⟩
  | 3 => ⟨S64, .f32⟩
  | 4 => ⟨S64x40, .f32⟩
  | 5 => ⟨S40, .f32⟩
  | 6 => ⟨S1x800000, .i32⟩
  | 7 => ⟨S800000, .i32⟩
  | 8 => ⟨S1x800000, .i32⟩
  | 9 => ⟨S800000, .i32⟩
  | 10 => ⟨S100000x64, .f32⟩
  | 11 => ⟨S_, .f32⟩
  | 12 => ⟨S800000, .f32⟩
  | 13 => ⟨S_, .f32⟩
  | 14 => ⟨S100000, .f32⟩
  | 15 => ⟨S800000x1, .i32⟩
  | 16 => ⟨S100000, .f32⟩
  | 17 => ⟨S_, .f32⟩
  | 18 => ⟨S100000, .f32⟩
  | 19 => ⟨S100000, .f32⟩
  | 20 => ⟨S100000, .f32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S800000, .f32⟩
  | 30 => ⟨S_, .i32⟩
  | 31 => ⟨S800000, .i32⟩
  | 32 => ⟨S800000, .i1⟩
  | 33 => ⟨S_, .i32⟩
  | 34 => ⟨S800000, .i32⟩
  | 35 => ⟨S800000, .i32⟩
  | 36 => ⟨S800000, .i32⟩
  | 37 => ⟨S800000x1, .i32⟩
  | 38 => ⟨S800000, .f32⟩
  | 39 => ⟨S800000, .f32⟩
  | 40 => ⟨S_, .i32⟩
  | 41 => ⟨S800000, .i32⟩
  | 42 => ⟨S800000, .i1⟩
  | 43 => ⟨S_, .i32⟩
  | 44 => ⟨S800000, .i32⟩
  | 45 => ⟨S800000, .i32⟩
  | 46 => ⟨S800000, .i32⟩
  | 47 => ⟨S800000x1, .i32⟩
  | 48 => ⟨S800000x64, .f32⟩
  | 49 => ⟨S800000x1, .f32⟩
  | 50 => ⟨S800000x64, .f32⟩
  | 51 => ⟨S800000x64, .f32⟩
  | 52 => ⟨S_, .f32⟩
  | 53 => ⟨S100000x64, .f32⟩
  | 54 => ⟨S800000x1, .i32⟩
  | 55 => ⟨S100000x64, .f32⟩
  | 56 => ⟨S100000, .f32⟩
  | 57 => ⟨S100000x1, .f32⟩
  | 58 => ⟨S100000x64, .f32⟩
  | 59 => ⟨S100000x64, .f32⟩
  | 60 => ⟨S100000x64, .f32⟩
  | 61 => ⟨S1x64, .f32⟩
  | 62 => ⟨S100000x64, .f32⟩
  | 63 => ⟨S100000x64, .f32⟩
  | 64 => ⟨S_, .f32⟩
  | 65 => ⟨S100000x64, .f32⟩
  | 66 => ⟨S100000x64, .f32⟩
  | 67 => ⟨S100000x40, .f32⟩
  | 68 => ⟨S_, .f32⟩
  | 69 => ⟨S800000, .f32⟩
  | 70 => ⟨S_, .f32⟩
  | 71 => ⟨S100000, .f32⟩
  | 72 => ⟨S800000x1, .i32⟩
  | 73 => ⟨S100000, .f32⟩
  | 74 => ⟨S_, .f32⟩
  | 75 => ⟨S100000, .f32⟩
  | 76 => ⟨S100000, .f32⟩
  | 77 => ⟨S100000, .f32⟩
  | 78 => ⟨S_, .i32⟩
  | 79 => ⟨S800000, .i32⟩
  | 80 => ⟨S800000, .i1⟩
  | 81 => ⟨S_, .i32⟩
  | 82 => ⟨S800000, .i32⟩
  | 83 => ⟨S800000, .i32⟩
  | 84 => ⟨S800000, .i32⟩
  | 85 => ⟨S800000x1, .i32⟩
  | 86 => ⟨S800000, .f32⟩
  | 87 => ⟨S_, .i32⟩
  | 88 => ⟨S800000, .i32⟩
  | 89 => ⟨S800000, .i1⟩
  | 90 => ⟨S_, .i32⟩
  | 91 => ⟨S800000, .i32⟩
  | 92 => ⟨S800000, .i32⟩
  | 93 => ⟨S800000, .i32⟩
  | 94 => ⟨S800000x1, .i32⟩
  | 95 => ⟨S800000, .f32⟩
  | 96 => ⟨S800000, .f32⟩
  | 97 => ⟨S_, .i32⟩
  | 98 => ⟨S800000, .i32⟩
  | 99 => ⟨S800000, .i1⟩
  | 100 => ⟨S_, .i32⟩
  | 101 => ⟨S800000, .i32⟩
  | 102 => ⟨S800000, .i32⟩
  | 103 => ⟨S800000, .i32⟩
  | 104 => ⟨S800000x1, .i32⟩
  | 105 => ⟨S800000x40, .f32⟩
  | 106 => ⟨S800000x1, .f32⟩
  | 107 => ⟨S800000x40, .f32⟩
  | 108 => ⟨S800000x40, .f32⟩
  | 109 => ⟨S_, .f32⟩
  | 110 => ⟨S100000x40, .f32⟩
  | 111 => ⟨S800000x1, .i32⟩
  | 112 => ⟨S100000x40, .f32⟩
  | 113 => ⟨S100000, .f32⟩
  | 114 => ⟨S100000x1, .f32⟩
  | 115 => ⟨S100000x40, .f32⟩
  | 116 => ⟨S100000x40, .f32⟩
  | 117 => ⟨S100000x40, .f32⟩
  | 118 => ⟨S1x40, .f32⟩
  | 119 => ⟨S100000x40, .f32⟩
  | 120 => ⟨S100000x40, .f32⟩
  | 121 => ⟨S_, .f32⟩
  | 122 => ⟨S100000, .f32⟩
  | 123 => ⟨S_, .f32⟩
  | 124 => ⟨S100000, .f32⟩
  | 125 => ⟨S100000, .f32⟩
  | 126 => ⟨S100000x1, .f32⟩
  | 127 => ⟨S100000x40, .f32⟩
  | _ => ⟨S100000x64, .f32⟩

abbrev hbmTy0_1 (i : Nat) : BufTy := match i % 128 with
  | 0 => ⟨S100000x40, .f32⟩
  | 1 => ⟨S100000x40, .f32⟩
  | 2 => ⟨S_, .f32⟩
  | 3 => ⟨S100000, .f32⟩
  | 4 => ⟨S100000x1, .f32⟩
  | 5 => ⟨S100000x1, .f32⟩
  | 6 => ⟨S100000x40, .f32⟩
  | 7 => ⟨S100000x40, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call0_cst : Ref sig .tc := ⟨.hbm, 64, rfl⟩
abbrev main_call0_v0 : Ref sig .tc := ⟨.hbm, 65, rfl⟩
abbrev main_v48 : Ref sig .tc := ⟨.hbm, 66, rfl⟩
abbrev main_v49 : Ref sig .tc := ⟨.hbm, 67, rfl⟩
abbrev main_cst_8 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_10 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_c_11 : Ref sig .tc := ⟨.hbm, 78, rfl⟩
abbrev main_v57 : Ref sig .tc := ⟨.hbm, 79, rfl⟩
abbrev main_v58 : Ref sig .tc := ⟨.hbm, 80, rfl⟩
abbrev main_c_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_13 : Ref sig .tc := ⟨.hbm, 87, rfl⟩
abbrev main_v64 : Ref sig .tc := ⟨.hbm, 88, rfl⟩
abbrev main_v65 : Ref sig .tc := ⟨.hbm, 89, rfl⟩
abbrev main_c_14 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_c_15 : Ref sig .tc := ⟨.hbm, 97, rfl⟩
abbrev main_v72 : Ref sig .tc := ⟨.hbm, 98, rfl⟩
abbrev main_v73 : Ref sig .tc := ⟨.hbm, 99, rfl⟩
abbrev main_c_16 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_17 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_call1_cst : Ref sig .tc := ⟨.hbm, 121, rfl⟩
abbrev main_call1_v0 : Ref sig .tc := ⟨.hbm, 122, rfl⟩
abbrev main_call1_cst_0 : Ref sig .tc := ⟨.hbm, 123, rfl⟩
abbrev main_call1_v1 : Ref sig .tc := ⟨.hbm, 124, rfl⟩
abbrev main_call1_v2 : Ref sig .tc := ⟨.hbm, 125, rfl⟩
abbrev main_call1_v3 : Ref sig .tc := ⟨.hbm, 126, rfl⟩
abbrev main_call1_v4 : Ref sig .tc := ⟨.hbm, 127, rfl⟩
abbrev main_call1_v5 : Ref sig .tc := ⟨.hbm, 128, rfl⟩
abbrev main_call1_v6 : Ref sig .tc := ⟨.hbm, 129, rfl⟩
abbrev main_call1_cst_1 : Ref sig .tc := ⟨.hbm, 130, rfl⟩
abbrev main_call1_v7 : Ref sig .tc := ⟨.hbm, 131, rfl⟩
abbrev main_call1_v8 : Ref sig .tc := ⟨.hbm, 132, rfl⟩
abbrev main_call1_v9 : Ref sig .tc := ⟨.hbm, 133, rfl⟩
abbrev main_call1_v10 : Ref sig .tc := ⟨.hbm, 134, rfl⟩
abbrev main_v93 : Ref sig .tc := ⟨.hbm, 135, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S100000 : S_.BroadcastsInDim S100000 (![] : Fin 0 → Fin S100000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S800000x1_S800000x40_0_1 : S800000x1.BroadcastsInDim S800000x40 (![0, 1] : Fin 2 → Fin S800000x40.rank)
  bcast_S_S100000x40 : S_.BroadcastsInDim S100000x40 (![] : Fin 0 → Fin S100000x40.rank)
  bcast_S100000x1_S100000x40_0_1 : S100000x1.BroadcastsInDim S100000x40 (![0, 1] : Fin 2 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  dot_S100000x64_S64x64_S100000x64_1_0_0_1_n_n_wf : DotDims.WF S100000x64 S64x64 S100000x64 [1] [0] [0] [1] [] []
  scatter_S100000_S800000x1_S800000_n_0_0_1_wf : ScatterDims.WF S100000 S800000x1 S800000 [] [0] [0] 1
  gather_S100000_S800000x1_S800000_n_0_n_n_0_1_1_wf : GatherDims.WF S100000 S800000x1 S800000 [] [0] [] [0] [] 1 ![1]
  gather_S100000x64_S800000x1_S800000x64_1_0_n_n_0_1_164_wf : GatherDims.WF S100000x64 S800000x1 S800000x64 [1] [0] [] [0] [] 1 ![1, 64]
  scatter_S100000x64_S800000x1_S800000x64_1_0_0_1_wf : ScatterDims.WF S100000x64 S800000x1 S800000x64 [1] [0] [0] 1
  dot_S100000x64_S64x40_S100000x40_1_0_0_1_n_n_wf : DotDims.WF S100000x64 S64x40 S100000x40 [1] [0] [0] [1] [] []
  gather_S100000x40_S800000x1_S800000x40_1_0_n_n_0_1_140_wf : GatherDims.WF S100000x40 S800000x1 S800000x40 [1] [0] [] [0] [] 1 ![1, 40]
  scatter_S100000x40_S800000x1_S800000x40_1_0_0_1_wf : ScatterDims.WF S100000x40 S800000x1 S800000x40 [1] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000_S800000x1_S800000_n_0_n_n_0_1_1 : GatherDims S100000 S800000x1 S800000 where
  offsetDims := []
  collapsedSliceDims := [0]
  operandBatchingDims := []
  startIndicesBatchingDims := []
  startIndexMap := [0]
  indexVectorDim := 1
  sliceSizes := ![1]
  wf := gather_S100000_S800000x1_S800000_n_0_n_n_0_1_1_wf
def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf
def gather_S100000x40_S800000x1_S800000x40_1_0_n_n_0_1_140 : GatherDims S100000x40 S800000x1 S800000x40 where
  offsetDims := [1]
  collapsedSliceDims := [0]
  operandBatchingDims := []
  startIndicesBatchingDims := []
  startIndexMap := [0]
  indexVectorDim := 1
  sliceSizes := ![1, 40]
  wf := gather_S100000x40_S800000x1_S800000x40_1_0_n_n_0_1_140_wf
def scatter_S100000x40_S800000x1_S800000x40_1_0_0_1 : ScatterDims S100000x40 S800000x1 S800000x40 where
  updateWindowDims := [1]
  insertedWindowDims := [0]
  scatterDimsToOperandDims := [0]
  indexVectorDim := 1
  wf := scatter_S100000x40_S800000x1_S800000x40_1_0_0_1_wf

class Facts : Prop extends Facts₀ where

variable [Facts]
-- ==== Proof.KernelRun.lean ====
/-
  The idealized kernel's run, with its result named.

  @main is seven segments: three stretches of host operations and four pallas_call regions. The generated frame
  follows every unscoped buffer of the TensorCore through them: the contents at the last boundary are `Gen.W7`,
  and the final state holds every unscoped buffer at those contents. The frame claim keeps only the six argument
  buffers of that; here the same launch is read once more at the result buffer `main_v58` as well, so that the
  run's post names the result array as `W7` at that buffer. What `W7` holds there — the fourth region's output,
  as a function of the arguments — is the business of the modules that import this one.
-/
import proofs.«132426_j6605659701280_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at the last
    boundary's contents and the six argument buffers end as launched. -/
theorem run_result : θ_run defs (onTc (τ := τ) (main (F := F))) ⟨m, fun _ => 0, ρ⟩ (fun r => ∀ c : Dev nD,
      r.2.mem ((c.tc : Thread nD τ).loc main_v58) = W7 m ρ c (Proc.devRef .tc main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v58 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.Result

end
-- ==== Proof.Spec.lean ====
/-
  What the four pallas_call regions compute, as whole-array functions of the arrays they read, index by index, on the
  extended reals.

  * The feature transform: `(X · W)[p, q] = ∑ₖ X[p, k] · W[k, q]`, for the hidden width 64 and the class width 40.
  * The combine of a GCN layer: with `a` the aggregated neighbour messages, `h` the transformed features, `s` the column
    of squared inverse-root degrees (the self-loop weight) and `b` the bias row,
      `z[p, q] = (a[p, q] + h[p, q] · s[p, 0]) + b[0, q]`;
    the first layer ends in `max z 0`, the second in the log-softmax of each row of `z`:
      `(z[p, q] − M p) − log ∑ₖ exp (z[p, k] − M p)`,  `M p` the maximum of row `p` folded from `−∞`.
  The float literals stay as their patterns: the same pattern stands on both sides of every equation and is never
  evaluated.
-/
import Idealize.ShloMosaic.PureOps.Ideal.Laws
import Idealize.ShloMosaic.Lib.ValueIdx

noncomputable section

namespace Cert.Gcn

open Idealize.ShloMosaic Idealize.ShloMosaic.ValueIdx

/-- Entry `(p, q)` of the product of an `[n, 64]` array with a `[64, d]` array. -/
def mmAt {n d : Nat} (x : FVec Ideal ⟨2, ![n, 64]⟩ .f32) (w : FVec Ideal ⟨2, ![64, d]⟩ .f32) (p : Fin n) (q : Fin d) : EReal :=
  ∑ k : Fin 64, x (ix2 p k) * w (ix2 k q)

/-- The product `X · W` as a whole array. -/
def mm {n d : Nat} (x : FVec Ideal ⟨2, ![n, 64]⟩ .f32) (w : FVec Ideal ⟨2, ![64, d]⟩ .f32) : FVec Ideal ⟨2, ![n, d]⟩ .f32 :=
  fun i => mmAt x w (i 0) (i 1)

/-- The layer's pre-activation at `(p, q)`: the aggregate plus the self-loop message plus the bias. -/
def zAt {n d : Nat} (a h : FVec Ideal ⟨2, ![n, d]⟩ .f32) (s : FVec Ideal ⟨2, ![n, 1]⟩ .f32) (b : FVec Ideal ⟨2, ![1, d]⟩ .f32)
    (p : Fin n) (q : Fin d) : EReal :=
  (a (ix2 p q) + h (ix2 p q) * s (ix2 p (0 : Fin 1))) + b (ix2 (0 : Fin 1) q)

/-- The first layer's output: the pre-activation clamped below at the zero pattern. -/
def reluAt {n d : Nat} (a h : FVec Ideal ⟨2, ![n, d]⟩ .f32) (s : FVec Ideal ⟨2, ![n, 1]⟩ .f32) (b : FVec Ideal ⟨2, ![1, d]⟩ .f32)
    (p : Fin n) (q : Fin d) : EReal :=
  max (zAt a h s b p q) (Ideal.ofBits .f32 0x00000000#32)

def relu {n d : Nat} (a h : FVec Ideal ⟨2, ![n, d]⟩ .f32) (s : FVec Ideal ⟨2, ![n, 1]⟩ .f32) (b : FVec Ideal ⟨2, ![1, d]⟩ .f32) :
    FVec Ideal ⟨2, ![n, d]⟩ .f32 :=
  fun i => reluAt a h s b (i 0) (i 1)

/-- The maximum of row `p` of the pre-activation, folded from the pattern of `−∞`. -/
def rowMax {n d : Nat} (a h : FVec Ideal ⟨2, ![n, d]⟩ .f32) (s : FVec Ideal ⟨2, ![n, 1]⟩ .f32) (b : FVec Ideal ⟨2, ![1, d]⟩ .f32)
    (p : Fin n) : EReal :=
  (Finset.univ : Finset (Fin d)).fold max (Ideal.ofBits .f32 0xFF800000#32) (fun k => zAt a h s b p k)

/-- The second layer's output: the log-softmax of row `p` at column `q`. -/
def lsmAt {n d : Nat} (a h : FVec Ideal ⟨2, ![n, d]⟩ .f32) (s : FVec Ideal ⟨2, ![n, 1]⟩ .f32) (b : FVec Ideal ⟨2, ![1, d]⟩ .f32)
    (p : Fin n) (q : Fin d) : EReal :=
  (zAt a h s b p q - rowMax a h s b p)
    - Ideal.log (∑ k : Fin d, Ideal.exp (zAt a h s b p k - rowMax a h s b p))

def lsm {n d : Nat} (a h : FVec Ideal ⟨2, ![n, d]⟩ .f32) (s : FVec Ideal ⟨2, ![n, 1]⟩ .f32) (b : FVec Ideal ⟨2, ![1, d]⟩ .f32) :
    FVec Ideal ⟨2, ![n, d]⟩ .f32 :=
  fun i => lsmAt a h s b (i 0) (i 1)

/-! ## Rows carried from one array to another

  Row `p` of one quadruple of arrays and row `p'` of another, equal entry by entry (the bias rows equal), give equal
  pre-activations, hence equal outputs: what makes a block's rows the array's rows. -/

section Rows

variable {n n' d : Nat}
  (a h : FVec Ideal ⟨2, ![n, d]⟩ .f32) (s : FVec Ideal ⟨2, ![n, 1]⟩ .f32) (b : FVec Ideal ⟨2, ![1, d]⟩ .f32)
  (a' h' : FVec Ideal ⟨2, ![n', d]⟩ .f32) (s' : FVec Ideal ⟨2, ![n', 1]⟩ .f32) (b' : FVec Ideal ⟨2, ![1, d]⟩ .f32)
  (p : Fin n) (p' : Fin n')

theorem zAt_rows (ha : ∀ q : Fin d, a (ix2 p q) = a' (ix2 p' q)) (hh : ∀ q : Fin d, h (ix2 p q) = h' (ix2 p' q))
    (hs : s (ix2 p (0 : Fin 1)) = s' (ix2 p' (0 : Fin 1))) (hb : ∀ q : Fin d, b (ix2 (0 : Fin 1) q) = b' (ix2 (0 : Fin 1) q))
    (q : Fin d) : zAt a h s b p q = zAt a' h' s' b' p' q := by
  unfold zAt
  rw [ha q, hh q, hs, hb q]

theorem reluAt_rows (ha : ∀ q : Fin d, a (ix2 p q) = a' (ix2 p' q)) (hh : ∀ q : Fin d, h (ix2 p q) = h' (ix2 p' q))
    (hs : s (ix2 p (0 : Fin 1)) = s' (ix2 p' (0 : Fin 1))) (hb : ∀ q : Fin d, b (ix2 (0 : Fin 1) q) = b' (ix2 (0 : Fin 1) q))
    (q : Fin d) : reluAt a h s b p q = reluAt a' h' s' b' p' q := by
  unfold reluAt
  rw [zAt_rows a h s b a' h' s' b' p p' ha hh hs hb q]

theorem lsmAt_rows (ha : ∀ q : Fin d, a (ix2 p q) = a' (ix2 p' q)) (hh : ∀ q : Fin d, h (ix2 p q) = h' (ix2 p' q))
    (hs : s (ix2 p (0 : Fin 1)) = s' (ix2 p' (0 : Fin 1))) (hb : ∀ q : Fin d, b (ix2 (0 : Fin 1) q) = b' (ix2 (0 : Fin 1) q))
    (q : Fin d) : lsmAt a h s b p q = lsmAt a' h' s' b' p' q := by
  have hz : (fun k : Fin d => zAt a h s b p k) = fun k : Fin d => zAt a' h' s' b' p' k :=
    funext (zAt_rows a h s b a' h' s' b' p p' ha hh hs hb)
  have hm : rowMax a h s b p = rowMax a' h' s' b' p' := by unfold rowMax; rw [hz]
  unfold lsmAt
  rw [hm, zAt_rows a h s b a' h' s' b' p p' ha hh hs hb q]
  exact congrArg (fun t => (zAt a' h' s' b' p' q - rowMax a' h' s' b' p') - Ideal.log t)
    (Finset.sum_congr rfl fun k _ => by rw [zAt_rows a h s b a' h' s' b' p p' ha hh hs hb k])

end Rows

end Cert.Gcn

end
-- ==== Proof.LibSplitContraction.lean ====
/-
  Two general facts about contractions, for any sizes.

  * `sum_joined`: a sum over `Fin (p + q)` whose first `p` terms are `f` and whose last `q` terms are `g` is
    the sum of `f` plus the sum of `g` (any commutative monoid; on the extended reals no finiteness is
    needed).  It joins a product taken over a concatenated axis with the two products taken piece by piece.
  * `matmul_zero_at`: a matrix product (rows × contracted axis, contracted axis × columns) into the zero
    accumulator, read at entry (r, c) at the ideal instance, is the sum over the contracted axis of
    `lhs[r,k] · rhs[k,c]`.
-/
import Idealize.ShloMosaic.PureOps.Ideal.Laws
import Idealize.ShloMosaic.Lib.ValueIdx

noncomputable section

namespace Cert.Lib.SplitContraction

open Idealize.ShloMosaic Idealize.ShloMosaic.ValueIdx

/-- A sum over the joined axis, whose first `p` terms are `f` and whose last `q` terms are `g`, is the
    sum of `f` plus the sum of `g`. -/
theorem sum_joined {M : Type} [AddCommMonoid M] (p q : Nat) (h : Fin (p + q) → M) (f : Fin p → M) (g : Fin q → M)
    (hf : ∀ k : Fin p, h (Fin.castAdd q k) = f k) (hg : ∀ k : Fin q, h (Fin.natAdd p k) = g k) :
    ∑ k : Fin (p + q), h k = ∑ k : Fin p, f k + ∑ k : Fin q, g k := by
  rw [Fin.sum_univ_add]
  exact congrArg₂ (· + ·) (Finset.sum_congr rfl fun k _ => hf k) (Finset.sum_congr rfl fun k _ => hg k)

/-- A matrix product (rows × contracted axis, contracted axis × columns) into the zero accumulator, read
    at entry (r, c): the sum over the contracted axis of the row's entries times the column's.  The four
    hypotheses name the coordinates of the operands' indices at an output index and a contraction index
    (for a printed dimension record: two by unfolding the index maps, two by the library's
    `lhsIdx_val_of_single` / `rhsIdx_val_of_single`). -/
theorem matmul_zero_at {n K d : Nat} {φ₁ φ₂ : FTy}
    (D : DotDims ⟨2, ![n, K]⟩ ⟨2, ![K, d]⟩ ⟨2, ![n, d]⟩)
    (hr : D.contr.rank = 1) (hs : D.contr.size ⟨0, by omega⟩ = K)
    (hl0 : ∀ j q, (D.lhsIdx j q 0).val = (j 0).val)
    (hl1 : ∀ j q, (D.lhsIdx j q 1).val = (q ⟨0, by omega⟩).val)
    (hr0 : ∀ j q, (D.rhsIdx j q 0).val = (q ⟨0, by omega⟩).val)
    (hr1 : ∀ j q, (D.rhsIdx j q 1).val = (j 1).val)
    (prec : Option ContractPrecision)
    (lhs : FVec Ideal ⟨2, ![n, K]⟩ φ₁) (rhs : FVec Ideal ⟨2, ![K, d]⟩ φ₂) (r : Fin n) (c : Fin d) :
    FloatOps.matmul D prec lhs rhs (constant (F := Ideal) ⟨2, ![n, d]⟩ .f32 0x00000000#32) (ix2 r c)
      = ∑ k : Fin K, lhs (ix2 r k) * rhs (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 r c) ((contrEquiv1 D K hr hs).symm k) = ix2 r k := funext fun a => Fin.ext (by
    match a with
    | ⟨0, _⟩ => exact hl0 _ _
    | ⟨1, _⟩ => exact (hl1 _ _).trans hk)
  have er : D.rhsIdx (ix2 r c) ((contrEquiv1 D K hr hs).symm k) = ix2 k c := funext fun a => Fin.ext (by
    match a with
    | ⟨0, _⟩ => exact (hr0 _ _).trans hk
    | ⟨1, _⟩ => exact hr1 _ _)
  rw [el, er]

end Cert.Lib.SplitContraction

end
-- ==== Proof.TransformRegions.lean ====
/-
  The two feature-transform regions of the idealized kernel, read as values.

  Each is a grid of ten points; point `t` fetches rows `[10000·t, 10000·t + 10000)` of the left array and the whole right
  array, multiplies them on the matrix unit into a zero accumulator and writes the product back as the same rows of the
  output. On the extended reals the narrowing of the operands before the product is the identity, so entry `(p, q)` of
  a block is `∑ₖ left[p, k] · right[k, q]`; a row of the output array depends on the same row of the left array only, so
  the ten blocks are the ten row ranges of ONE whole-array product, and they tile the output. Hence after the region the
  output array is `Gcn.mm` of the two arrays as the region finds them, whatever those are (`V` is a parameter).
-/
import proofs.«132426_j6605659701280_1_alg».proof.Proof.Gen.KernelIdeal.Frame
import proofs.«132426_j6605659701280_1_alg».proof.Proof.Spec
import proofs.«132426_j6605659701280_1_alg».proof.Proof.LibSplitContraction
import Idealize.ShloMosaic.Lib.Pipeline.Value

set_option maxRecDepth 16384

noncomputable section

namespace Cert.KernelIdeal.Transform

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## Region 0: rows `[10000·t, 10000·t + 10000)` of `main_arg0 · main_arg2` at grid point `t` -/

theorem dot0_l0 (j : S10000x64.Idx) (q : dot_S10000x64_S64x64_S10000x64_1_0_0_1_n_n.contr.Idx) : (dot_S10000x64_S64x64_S10000x64_1_0_0_1_n_n.lhsIdx j q 0).val = (j 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl

theorem dot0_r1 (j : S10000x64.Idx) (q : dot_S10000x64_S64x64_S10000x64_1_0_0_1_n_n.contr.Idx) : (dot_S10000x64_S64x64_S10000x64_1_0_0_1_n_n.rhsIdx j q 1).val = (j 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The body's stored value at `(p, q)` of the block: the narrowing of the operands is the identity on the extended
    reals and the accumulator starts at zero, so it is the row of the left block against the column of the right one. -/
theorem pay0_at (x0 : Vec Ideal S10000x64 .f32) (x1 : Vec Ideal S64x64 .f32) (p : Fin 10000) (q : Fin 64) :
    k0_pay1 x0 x1 (ix2 p q) = ∑ k : Fin 64, x0 (ix2 p k) * x1 (ix2 k q) := by
  unfold k0_pay1
  exact Cert.Lib.SplitContraction.matmul_zero_at dot_S10000x64_S64x64_S10000x64_1_0_0_1_n_n rfl rfl dot0_l0
    (fun j q => dot_S10000x64_S64x64_S10000x64_1_0_0_1_n_n.lhsIdx_val_of_single rfl j q) (fun j q => dot_S10000x64_S64x64_S10000x64_1_0_0_1_n_n.rhsIdx_val_of_single rfl j q) dot0_r1 none _ _ p q

/-- The printed index maps over the ten grid points: the left operand and the output move down the rows with the point,
    the right operand stays. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the two arrays as the region finds them. -/
theorem flushed0 (c : Dev nD) (t : Fin cfg0.N) :
    (dat0 V c).flushed 2 t = ((cfg0.win 2).blk t).view.read (Elt Ideal) (mm (V c main_arg0) (V c main_arg2)) := by
  show (cfg0.win 2).cut (grid0.coords t) ((dat0 V c).after 2 t) = _
  rw [after0_2]
  unfold out0_2
  rw [View.canon_unit_zero hz]
  simp only [View.ld_unit_zero (S := S10000x64) hz, View.ld_unit_zero (S := S64x64) hz]
  obtain ⟨e0, e1, e2, e3, e4, e5⟩ := idx_facts0 t
  funext j
  show k0_pay1 (iblk0 V c 0 t) (iblk0 V c 1 t) j
    = mmAt (V c main_arg0) (V c main_arg2) ((((cfg0.win 2).blk t).view.emb j) 0) ((((cfg0.win 2).blk t).view.emb j) 1)
  refine (congrArg (k0_pay1 (iblk0 V c 0 t) (iblk0 V c 1 t)) (eq_ix2 j)).trans ?_
  refine (pay0_at (iblk0 V c 0 t) (iblk0 V c 1 t) (j 0) (j 1)).trans ?_
  unfold mmAt
  refine Finset.sum_congr rfl fun k _ => congrArg₂ (· * ·) ?_ ?_
  · show V c main_arg0 (((cfg0.win 0).blk t).view.emb (ix2 (j 0) k)) = V c main_arg0 (ix2 ((((cfg0.win 2).blk t).view.emb j) 0) k)
    refine congrArg (V c main_arg0) (funext fun a => Fin.ext ?_)
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 64 + 1 * k.val = k.val; omega
  · show V c main_arg2 (((cfg0.win 1).blk t).view.emb (ix2 k (j 1))) = V c main_arg2 (ix2 k ((((cfg0.win 2).blk t).view.emb j) 1))
    refine congrArg (V c main_arg2) (funext fun a => Fin.ext ?_)
    match a with
    | ⟨0, _⟩ => show win0_1.index t (0 : Fin 2) * 64 + 1 * k.val = k.val; omega
    | ⟨1, _⟩ => show win0_1.index t (1 : Fin 2) * 64 + 1 * (j 1).val = win0_2.index t (1 : Fin 2) * 64 + 1 * (j 1).val; omega

/-- An index of the output array is in point `t`'s block iff each coordinate is in the block's range on its axis. -/
theorem mem_blk0 (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v31).slice (win0_2.rect t)).set ↔ _
  rw [View.set_slice_whole, Rect.mem_set_unit]
  exact Iff.rfl

/-- The ten blocks of 10000 rows tile the 100000 rows: row `r` is in the block of point `r / 10000`. -/
theorem cover0 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : grid0.N = 10 := N_0
  let t : Fin cfg0.N := ⟨(i 0).val / 10000, by show _ < grid0.N; omega⟩
  obtain ⟨e0, e1, e2, e3, e4, e5⟩ := idx_facts0 t
  have ht : t.val = (i 0).val / 10000 := rfl
  refine ⟨t, flush0_2 t, ?_⟩
  rw [mem_blk0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- The output array after the region: the product of the two arrays as the region finds them. -/
theorem final0 (c : Dev nD) : (dat0 V c).arrAt 2 cfg0.N = mm (V c main_arg0) (V c main_arg2) :=
  (dat0 V c).arrAt_eq_of_cover 2 (mm (V c main_arg0) (V c main_arg2)) (fun t _ => flushed0 V c t) cover0

/-! ## Region 2: rows `[10000·t, 10000·t + 10000)` of `main_v44 · main_arg4` at grid point `t` -/

theorem dot2_l0 (j : S10000x40.Idx) (q : dot_S10000x64_S64x40_S10000x40_1_0_0_1_n_n.contr.Idx) : (dot_S10000x64_S64x40_S10000x40_1_0_0_1_n_n.lhsIdx j q 0).val = (j 0).val := by
  unfold DotDims.lhsIdx
  rw [dif_neg (show ¬(0 : Fin S10000x64.rank) ∈ dot_S10000x64_S64x40_S10000x40_1_0_0_1_n_n.lhsBatch by decide), dif_pos (show (0 : Fin S10000x64.rank) ∈ dot_S10000x64_S64x40_S10000x40_1_0_0_1_n_n.lhsNonContracting by decide)]
  rfl

theorem dot2_r1 (j : S10000x40.Idx) (q : dot_S10000x64_S64x40_S10000x40_1_0_0_1_n_n.contr.Idx) : (dot_S10000x64_S64x40_S10000x40_1_0_0_1_n_n.rhsIdx j q 1).val = (j 1).val := by
  unfold DotDims.rhsIdx
  rw [dif_neg (show ¬(1 : Fin S64x40.rank) ∈ dot_S10000x64_S64x40_S10000x40_1_0_0_1_n_n.rhsBatch by decide), dif_pos (show (1 : Fin S64x40.rank) ∈ dot_S10000x64_S64x40_S10000x40_1_0_0_1_n_n.rhsNonContracting by decide)]
  rfl

/-- The body's stored value at `(p, q)` of the block: the narrowing of the operands is the identity on the extended
    reals and the accumulator starts at zero, so it is the row of the left block against the column of the right one. -/
theorem pay2_at (x0 : Vec Ideal S10000x64 .f32) (x1 : Vec Ideal S64x40 .f32) (p : Fin 10000) (q : Fin 40) :
    k2_pay1 x0 x1 (ix2 p q) = ∑ k : Fin 64, x0 (ix2 p k) * x1 (ix2 k q) := by
  unfold k2_pay1
  simp only [shapeCast_self]
  exact Cert.Lib.SplitContraction.matmul_zero_at dot_S10000x64_S64x40_S10000x40_1_0_0_1_n_n rfl rfl dot2_l0
    (fun j q => dot_S10000x64_S64x40_S10000x40_1_0_0_1_n_n.lhsIdx_val_of_single rfl j q) (fun j q => dot_S10000x64_S64x40_S10000x40_1_0_0_1_n_n.rhsIdx_val_of_single rfl j q) dot2_r1 none _ _ p q

/-- The printed index maps over the ten grid points: the left operand and the output move down the rows with the point,
    the right operand stays. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the product of the two arrays as the region finds them. -/
theorem flushed2 (c : Dev nD) (t : Fin cfg2.N) :
    (dat2 V c).flushed 2 t = ((cfg2.win 2).blk t).view.read (Elt Ideal) (mm (V c main_v44) (V c main_arg4)) := by
  show (cfg2.win 2).cut (grid2.coords t) ((dat2 V c).after 2 t) = _
  rw [after2_2]
  unfold out2_2
  rw [View.canon_unit_zero hz]
  simp only [View.ld_unit_zero (S := S10000x64) hz, View.ld_unit_zero (S := S64x40) hz]
  obtain ⟨e0, e1, e2, e3, e4, e5⟩ := idx_facts2 t
  funext j
  show k2_pay1 (iblk2 V c 0 t) (iblk2 V c 1 t) j
    = mmAt (V c main_v44) (V c main_arg4) ((((cfg2.win 2).blk t).view.emb j) 0) ((((cfg2.win 2).blk t).view.emb j) 1)
  refine (congrArg (k2_pay1 (iblk2 V c 0 t) (iblk2 V c 1 t)) (eq_ix2 j)).trans ?_
  refine (pay2_at (iblk2 V c 0 t) (iblk2 V c 1 t) (j 0) (j 1)).trans ?_
  unfold mmAt
  refine Finset.sum_congr rfl fun k _ => congrArg₂ (· * ·) ?_ ?_
  · show V c main_v44 (((cfg2.win 0).blk t).view.emb (ix2 (j 0) k)) = V c main_v44 (ix2 ((((cfg2.win 2).blk t).view.emb j) 0) k)
    refine congrArg (V c main_v44) (funext fun a => Fin.ext ?_)
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 64 + 1 * k.val = k.val; omega
  · show V c main_arg4 (((cfg2.win 1).blk t).view.emb (ix2 k (j 1))) = V c main_arg4 (ix2 k ((((cfg2.win 2).blk t).view.emb j) 1))
    refine congrArg (V c main_arg4) (funext fun a => Fin.ext ?_)
    match a with
    | ⟨0, _⟩ => show win2_1.index t (0 : Fin 2) * 64 + 1 * k.val = k.val; omega
    | ⟨1, _⟩ => show win2_1.index t (1 : Fin 2) * 40 + 1 * (j 1).val = win2_2.index t (1 : Fin 2) * 40 + 1 * (j 1).val; omega

/-- An index of the output array is in point `t`'s block iff each coordinate is in the block's range on its axis. -/
theorem mem_blk2 (t : Fin cfg2.N) (i : S100000x40.Idx) :
    i ∈ ((cfg2.win 2).blk t).view.set ↔ ∀ a : Fin 2, win2_2.index t a * S10000x40.size a ≤ (i a).val ∧ (i a).val < win2_2.index t a * S10000x40.size a + S10000x40.size a := by
  show i ∈ ((View.whole main_v45).slice (win2_2.rect t)).set ↔ _
  rw [View.set_slice_whole, Rect.mem_set_unit]
  exact Iff.rfl

/-- The ten blocks of 10000 rows tile the 100000 rows: row `r` is in the block of point `r / 10000`. -/
theorem cover2 (i : S100000x40.Idx) : ∃ t : Fin cfg2.N, (cfg2.win 2).flush t = true ∧ i ∈ ((cfg2.win 2).blk t).view.set := by
  have hi0 : (i 0).val < 100000 := (i 0).isLt
  have hi1 : (i 1).val < 40 := (i 1).isLt
  have hN : grid2.N = 10 := N_2
  let t : Fin cfg2.N := ⟨(i 0).val / 10000, by show _ < grid2.N; omega⟩
  obtain ⟨e0, e1, e2, e3, e4, e5⟩ := idx_facts2 t
  have ht : t.val = (i 0).val / 10000 := rfl
  refine ⟨t, flush2_2 t, ?_⟩
  rw [mem_blk2]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 40 ≤ (i 1).val ∧ (i 1).val < win2_2.index t (1 : Fin 2) * 40 + 40; omega

/-- The output array after the region: the product of the two arrays as the region finds them. -/
theorem final2 (c : Dev nD) : (dat2 V c).arrAt 2 cfg2.N = mm (V c main_v44) (V c main_arg4) :=
  (dat2 V c).arrAt_eq_of_cover 2 (mm (V c main_v44) (V c main_arg4)) (fun t _ => flushed2 V c t) cover2

end Cert.KernelIdeal.Transform

end
-- ==== Proof.LibColumnBroadcast.lean ====
/-
  A column broadcast along rows, read at an index: the companion of the library's one-row form
  (`broadcastTo_1b_ab_apply`, one row repeated down the rows) for one COLUMN repeated across the columns.
-/
import Idealize.ShloMosaic.Lib.Pipeline.Value
import Idealize.ShloMosaic.Lib.ValueIdx

namespace Idealize.ShloMosaic.ValueIdx

open Idealize.ShloMosaic

variable {α : Type}

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibKeepdimsColumn.lean ====
/-
  A vector of extent `a` seen as a column `[a, 1]`: what `keepdims=True` leaves of a sum over the last axis, and what a
  reshape of a flat array to a column is. Row-major, the element at `(i, u)` of the column is the element at `i` of the
  vector, since `i · 1 + u = i` for the one value `u = 0`. And the sums over the index sets of a flat array and of a
  column, each as the sum over the one coordinate that varies.
-/
import Idealize.ShloMosaic.Lib.ValueLayout

noncomputable section

open scoped BigOperators

namespace Cert.LibKeepdims

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A sum over the indices of a column `[n, 1]` is the sum over its rows, each read at the one column `0`. -/
theorem sum_idx_column {M : Type*} [AddCommMonoid M] {n : Nat} (f : (⟨2, ![n, 1]⟩ : Shape).Idx → M) :
    ∑ i, f i = ∑ a : Fin n, f (ix2 a (0 : Fin 1)) := by
  rw [sum_idx2]
  exact Finset.sum_congr rfl fun a _ => Fin.sum_univ_one _

end Cert.LibKeepdims

end
-- ==== Proof.CombineRegions.lean ====
/-
  The two combine regions of the idealized kernel, read as values.

  Each is a grid of ten points; point `t` fetches rows `[10000·t, 10000·t + 10000)` of the aggregated messages, of the
  transformed features and of the column of self-loop weights, and the whole bias row, and writes back the same rows of
  the layer's output: the pre-activation `(a + h · s) + b`, clamped below at zero in the first layer, and in the second
  taken to its row-wise log-softmax (a row maximum and a row sum over the 40 lanes, each kept as a column and spread back
  over the lanes). Every entry of a block depends on its own row of the arrays only (and on the bias row), so the ten
  blocks are the ten row ranges of ONE whole-array function, `Gcn.relu` or `Gcn.lsm`, and they tile the output. Hence
  after the region the output array is that function of the four arrays as the region finds them (`V` is a parameter).
-/
import proofs.«132426_j6605659701280_1_alg».proof.Proof.Gen.KernelIdeal.Frame
import proofs.«132426_j6605659701280_1_alg».proof.Proof.Spec
import proofs.«132426_j6605659701280_1_alg».proof.Proof.LibColumnBroadcast
import proofs.«132426_j6605659701280_1_alg».proof.Proof.LibKeepdimsColumn
import Idealize.ShloMosaic.Lib.Pipeline.Value
import Idealize.ShloMosaic.Lib.ValueLayout

set_option maxRecDepth 16384

noncomputable section

namespace Cert.KernelIdeal.Combine

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## The bodies' stored values at an entry of the block -/

/-- The pre-activation of a block of width 64: the aggregate plus the features weighted by the self-loop column, plus the bias row. -/
def zBlk64 (x0 x1 : Vec Ideal S10000x64 .f32) (x2 : Vec Ideal S10000x1 .f32) (x3 : Vec Ideal S1x64 .f32) : FVec Ideal S10000x64 .f32 :=
  addf (addf x0 (mulf x1 (broadcastTo S10000x64 x2 broadcasts_S10000x1_S10000x64))) (broadcastTo S10000x64 x3 broadcasts_S1x64_S10000x64)

/-- Read at `(p, q)`: the column of self-loop weights is read at row `p`, the bias row at column `q`. -/
theorem zBlk64_at (x0 x1 : Vec Ideal S10000x64 .f32) (x2 : Vec Ideal S10000x1 .f32) (x3 : Vec Ideal S1x64 .f32) (p : Fin 10000) (q : Fin 64) :
    zBlk64 x0 x1 x2 x3 (ix2 p q) = zAt x0 x1 x2 x3 p q := by
  unfold zBlk64 zAt
  show (x0 (ix2 p q) + x1 (ix2 p q) * broadcastTo S10000x64 x2 broadcasts_S10000x1_S10000x64 (ix2 p q))
      + broadcastTo S10000x64 x3 broadcasts_S1x64_S10000x64 (ix2 p q) = _
  rw [broadcastTo_a1_ab_apply x2 broadcasts_S10000x1_S10000x64 p q, broadcastTo_1b_ab_apply x3 broadcasts_S1x64_S10000x64 p q]

/-- The pre-activation of a block of width 40: the aggregate plus the features weighted by the self-loop column, plus the bias row. -/
def zBlk40 (x0 x1 : Vec Ideal S10000x40 .f32) (x2 : Vec Ideal S10000x1 .f32) (x3 : Vec Ideal S1x40 .f32) : FVec Ideal S10000x40 .f32 :=
  addf (addf x0 (mulf x1 (broadcastTo S10000x40 x2 broadcasts_S10000x1_S10000x40))) (broadcastTo S10000x40 x3 broadcasts_S1x40_S10000x40)

/-- Read at `(p, q)`: the column of self-loop weights is read at row `p`, the bias row at column `q`. -/
theorem zBlk40_at (x0 x1 : Vec Ideal S10000x40 .f32) (x2 : Vec Ideal S10000x1 .f32) (x3 : Vec Ideal S1x40 .f32) (p : Fin 10000) (q : Fin 40) :
    zBlk40 x0 x1 x2 x3 (ix2 p q) = zAt x0 x1 x2 x3 p q := by
  unfold zBlk40 zAt
  show (x0 (ix2 p q) + x1 (ix2 p q) * broadcastTo S10000x40 x2 broadcasts_S10000x1_S10000x40 (ix2 p q))
      + broadcastTo S10000x40 x3 broadcasts_S1x40_S10000x40 (ix2 p q) = _
  rw [broadcastTo_a1_ab_apply x2 broadcasts_S10000x1_S10000x40 p q, broadcastTo_1b_ab_apply x3 broadcasts_S1x40_S10000x40 p q]

/-- The first layer's body stores the pre-activation clamped below at the zero pattern. -/
theorem pay1_at (x0 x1 : Vec Ideal S10000x64 .f32) (x2 : Vec Ideal S10000x1 .f32) (x3 : Vec Ideal S1x64 .f32) (p : Fin 10000) (q : Fin 64) :
    k1_pay1 x0 x1 x2 x3 (ix2 p q) = reluAt x0 x1 x2 x3 p q := by
  unfold k1_pay1 reluAt
  simp only [shapeCast_self]
  exact congrArg (fun t => max t (Ideal.ofBits .f32 0x00000000#32)) (zBlk64_at x0 x1 x2 x3 p q)

/-- Each row's maximum over the lanes, kept as a column and spread back over the lanes. -/
def maxCol (z : FVec Ideal S10000x40 .f32) : FVec Ideal S10000x40 .f32 :=
  broadcastTo S10000x40 (shapeCast S10000x1 (multiReduction .maximumf [1] S10000 z 0xFF800000#32 reduces_S10000x40_S10000 (.inl rfl) rfl)
    shapeCasts_S10000_S10000x1) broadcasts_S10000x1_S10000x40

/-- The logarithm of each row's sum of exponentials, kept as a column and spread back over the lanes. -/
def lseCol (s : FVec Ideal S10000x40 .f32) : FVec Ideal S10000x40 .f32 :=
  broadcastTo S10000x40 (log (shapeCast S10000x1 (multiReduction .add [1] S10000 (exp s) 0x00000000#32 reduces_S10000x40_S10000 (.inl rfl) rfl)
    shapeCasts_S10000_S10000x1)) broadcasts_S10000x1_S10000x40

/-- The second layer's body, as its own sequence of operations. -/
theorem pay3_eq (x0 x1 : Vec Ideal S10000x40 .f32) (x2 : Vec Ideal S10000x1 .f32) (x3 : Vec Ideal S1x40 .f32) :
    k3_pay1 x0 x1 x2 x3 = subf (subf (zBlk40 x0 x1 x2 x3) (maxCol (zBlk40 x0 x1 x2 x3)))
      (lseCol (subf (zBlk40 x0 x1 x2 x3) (maxCol (zBlk40 x0 x1 x2 x3)))) := by
  unfold k3_pay1 zBlk40 maxCol lseCol
  simp only [shapeCast_self]

/-- Lane `k` of row `p`: the index the reductions over the lanes read. -/
theorem lane_eq (p : Fin 10000) (k : Fin 40) : reduces_S10000x40_S10000.lift (ix1 p) k = ix2 p k :=
  funext fun a => Fin.ext (by match a with | ⟨0, _⟩ => rfl | ⟨1, _⟩ => rfl)

theorem maxCol_at (z : FVec Ideal S10000x40 .f32) (p : Fin 10000) (q : Fin 40) :
    maxCol z (ix2 p q) = (Finset.univ : Finset (Fin 40)).fold max (Ideal.ofBits .f32 0xFF800000#32) (fun k => z (ix2 p k)) := by
  unfold maxCol
  refine (broadcastTo_a1_ab_apply _ broadcasts_S10000x1_S10000x40 p q).trans ?_
  refine (Cert.LibKeepdims.shapeCast_a_a1_apply _ shapeCasts_S10000_S10000x1 p (0 : Fin 1)).trans ?_
  refine (Ideal.multiReduction_maximumf_single z 0xFF800000#32 reduces_S10000x40_S10000 (.inl rfl) rfl (ix1 p)).trans ?_
  exact Finset.fold_congr fun k _ => congrArg z (lane_eq p k)

theorem lseCol_at (s : FVec Ideal S10000x40 .f32) (p : Fin 10000) (q : Fin 40) :
    lseCol s (ix2 p q) = Ideal.log (∑ k : Fin 40, Ideal.exp (s (ix2 p k))) := by
  unfold lseCol
  refine (broadcastTo_a1_ab_apply _ broadcasts_S10000x1_S10000x40 p q).trans ?_
  show Ideal.log (shapeCast S10000x1 (multiReduction .add [1] S10000 (exp s) 0x00000000#32 reduces_S10000x40_S10000 (.inl rfl) rfl)
    shapeCasts_S10000_S10000x1 (ix2 p (0 : Fin 1))) = _
  refine congrArg Ideal.log ?_
  refine (Cert.LibKeepdims.shapeCast_a_a1_apply _ shapeCasts_S10000_S10000x1 p (0 : Fin 1)).trans ?_
  refine (Ideal.multiReduction_add_single (exp s) 0x00000000#32 reduces_S10000x40_S10000 (.inl rfl) rfl (ix1 p)).trans ?_
  exact Finset.sum_congr rfl fun k _ => congrArg (fun i => Ideal.exp (s i)) (lane_eq p k)

/-- The second layer's body stores the row-wise log-softmax of the pre-activation. -/
theorem pay3_at (x0 x1 : Vec Ideal S10000x40 .f32) (x2 : Vec Ideal S10000x1 .f32) (x3 : Vec Ideal S1x40 .f32) (p : Fin 10000) (q : Fin 40) :
    k3_pay1 x0 x1 x2 x3 (ix2 p q) = lsmAt x0 x1 x2 x3 p q := by
  rw [pay3_eq]
  have hzk : ∀ k : Fin 40, zBlk40 x0 x1 x2 x3 (ix2 p k) = zAt x0 x1 x2 x3 p k := fun k => zBlk40_at x0 x1 x2 x3 p k
  have hm : ∀ k : Fin 40, maxCol (zBlk40 x0 x1 x2 x3) (ix2 p k) = rowMax x0 x1 x2 x3 p := fun k => by
    rw [maxCol_at]
    unfold rowMax
    exact Finset.fold_congr fun k' _ => hzk k'
  show (zBlk40 x0 x1 x2 x3 (ix2 p q) - maxCol (zBlk40 x0 x1 x2 x3) (ix2 p q))
      - lseCol (subf (zBlk40 x0 x1 x2 x3) (maxCol (zBlk40 x0 x1 x2 x3))) (ix2 p q) = _
  rw [lseCol_at, hzk q, hm q]
  unfold lsmAt
  refine congrArg (fun t => (zAt x0 x1 x2 x3 p q - rowMax x0 x1 x2 x3 p) - Ideal.log t) (Finset.sum_congr rfl fun k _ => ?_)
  show Ideal.exp (zBlk40 x0 x1 x2 x3 (ix2 p k) - maxCol (zBlk40 x0 x1 x2 x3) (ix2 p k)) = _
  rw [hzk k, hm k]

/-! ## Region 1: rows `[10000·t, 10000·t + 10000)` of the layer's output at grid point `t` -/

/-- The printed index maps over the ten grid points: the aggregate, the features, the degree column and the output move down
    the rows with the point; the bias row stays. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point `t` writes back is block `t` of the layer's output of the four arrays as the region finds them. -/
theorem flushed1 (c : Dev nD) (t : Fin cfg1.N) :
    (dat1 V c).flushed 4 t = ((cfg1.win 4).blk t).view.read (Elt Ideal) (relu (V c main_v43) (V c main_v31) (V c main_v12) (V c main_v29)) := by
  show (cfg1.win 4).cut (grid1.coords t) ((dat1 V c).after 4 t) = _
  rw [after1_4]
  unfold out1_4
  rw [View.canon_unit_zero hz]
  simp only [View.ld_unit_zero (S := S10000x64) hz, View.ld_unit_zero (S := S10000x1) hz, View.ld_unit_zero (S := S1x64) hz]
  obtain ⟨e0, e1, e2, e3, e4, e5, e6, e7, e8, e9⟩ := idx_facts1 t
  funext j
  show k1_pay1 (iblk1 V c 0 t) (iblk1 V c 1 t) (iblk1 V c 2 t) (iblk1 V c 3 t) j
    = reluAt (V c main_v43) (V c main_v31) (V c main_v12) (V c main_v29) ((((cfg1.win 4).blk t).view.emb j) 0) ((((cfg1.win 4).blk t).view.emb j) 1)
  refine (congrArg (k1_pay1 (iblk1 V c 0 t) (iblk1 V c 1 t) (iblk1 V c 2 t) (iblk1 V c 3 t)) (eq_ix2 j)).trans ?_
  refine (pay1_at (iblk1 V c 0 t) (iblk1 V c 1 t) (iblk1 V c 2 t) (iblk1 V c 3 t) (j 0) (j 1)).trans ?_
  refine (reluAt_rows (iblk1 V c 0 t) (iblk1 V c 1 t) (iblk1 V c 2 t) (iblk1 V c 3 t)
    (V c main_v43) (V c main_v31) (V c main_v12) (V c main_v29) (j 0) ((((cfg1.win 4).blk t).view.emb j) 0)
    (fun q => ?_) (fun q => ?_) ?_ (fun q => ?_) (j 1)).trans ?_
  · show V c main_v43 (((cfg1.win 0).blk t).view.emb (ix2 (j 0) q)) = V c main_v43 (ix2 ((((cfg1.win 4).blk t).view.emb j) 0) q)
    refine congrArg (V c main_v43) (funext fun a => Fin.ext ?_)
    match a with
    | ⟨0, _⟩ => show win1_0.index t (0 : Fin 2) * 10000 + 1 * (j 0).val = win1_4.index t (0 : Fin 2) * 10000 + 1 * (j 0).val; omega
    | ⟨1, _⟩ => show win1_0.index t (1 : Fin 2) * 64 + 1 * q.val = q.val; omega
  · show V c main_v31 (((cfg1.win 1).blk t).view.emb (ix2 (j 0) q)) = V c main_v31 (ix2 ((((cfg1.win 4).blk t).view.emb j) 0) q)
    refine congrArg (V c main_v31) (funext fun a => Fin.ext ?_)
    match a with
    | ⟨0, _⟩ => show win1_1.index t (0 : Fin 2) * 10000 + 1 * (j 0).val = win1_4.index t (0 : Fin 2) * 10000 + 1 * (j 0).val; omega
    | ⟨1, _⟩ => show win1_1.index t (1 : Fin 2) * 64 + 1 * q.val = q.val; omega
  · show V c main_v12 (((cfg1.win 2).blk t).view.emb (ix2 (j 0) (0 : Fin 1))) = V c main_v12 (ix2 ((((cfg1.win 4).blk t).view.emb j) 0) (0 : Fin 1))
    refine congrArg (V c main_v12) (funext fun a => Fin.ext ?_)
    match a with
    | ⟨0, _⟩ => show win1_2.index t (0 : Fin 2) * 10000 + 1 * (j 0).val = win1_4.index t (0 : Fin 2) * 10000 + 1 * (j 0).val; omega
    | ⟨1, _⟩ => show win1_2.index t (1 : Fin 2) * 1 + 1 * 0 = 0; omega
  · show V c main_v29 (((cfg1.win 3).blk t).view.emb (ix2 (0 : Fin 1) q)) = V c main_v29 (ix2 (0 : Fin 1) q)
    refine congrArg (V c main_v29) (funext fun a => Fin.ext ?_)
    match a with
    | ⟨0, _⟩ => show win1_3.index t (0 : Fin 2) * 1 + 1 * 0 = 0; omega
    | ⟨1, _⟩ => show win1_3.index t (1 : Fin 2) * 64 + 1 * q.val = q.val; omega
  · exact congrArg (reluAt (V c main_v43) (V c main_v31) (V c main_v12) (V c main_v29) ((((cfg1.win 4).blk t).view.emb j) 0))
      (Fin.ext (by show (j 1).val = win1_4.index t (1 : Fin 2) * 64 + 1 * (j 1).val; omega))

/-- An index of the output array is in point `t`'s block iff each coordinate is in the block's range on its axis. -/
theorem mem_blk1 (t : Fin cfg1.N) (i : S100000x64.Idx) :
    i ∈ ((cfg1.win 4).blk t).view.set ↔ ∀ a : Fin 2, win1_4.index t a * S10000x64.size a ≤ (i a).val ∧ (i a).val < win1_4.index t a * S10000x64.size a + S10000x64.size a := by
  show i ∈ ((View.whole main_v44).slice (win1_4.rect t)).set ↔ _
  rw [View.set_slice_whole, Rect.mem_set_unit]
  exact Iff.rfl

/-- The ten blocks of 10000 rows tile the 100000 rows: row `r` is in the block of point `r / 10000`. -/
theorem cover1 (i : S100000x64.Idx) : ∃ t : Fin cfg1.N, (cfg1.win 4).flush t = true ∧ i ∈ ((cfg1.win 4).blk t).view.set := by
  have hi0 : (i 0).val < 100000 := (i 0).isLt
  have hi1 : (i 1).val < 64 := (i 1).isLt
  have hN : grid1.N = 10 := N_1
  let t : Fin cfg1.N := ⟨(i 0).val / 10000, by show _ < grid1.N; omega⟩
  obtain ⟨e0, e1, e2, e3, e4, e5, e6, e7, e8, e9⟩ := idx_facts1 t
  have ht : t.val = (i 0).val / 10000 := rfl
  refine ⟨t, flush1_4 t, ?_⟩
  rw [mem_blk1]
  intro a
  match a with
  | ⟨0, _⟩ => show win1_4.index t (0 : Fin 2) * 10000 ≤ (i 0).val ∧ (i 0).val < win1_4.index t (0 : Fin 2) * 10000 + 10000; omega
  | ⟨1, _⟩ => show win1_4.index t (1 : Fin 2) * 64 ≤ (i 1).val ∧ (i 1).val < win1_4.index t (1 : Fin 2) * 64 + 64; omega

/-- The output array after the region: the layer's output of the four arrays as the region finds them. -/
theorem final1 (c : Dev nD) : (dat1 V c).arrAt 4 cfg1.N = relu (V c main_v43) (V c main_v31) (V c main_v12) (V c main_v29) :=
  (dat1 V c).arrAt_eq_of_cover 4 (relu (V c main_v43) (V c main_v31) (V c main_v12) (V c main_v29)) (fun t _ => flushed1 V c t) cover1

/-! ## Region 3: rows `[10000·t, 10000·t + 10000)` of the layer's output at grid point `t` -/

/-- The printed index maps over the ten grid points: the aggregate, the features, the degree column and the output move down
    the rows with the point; the bias row stays. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- What point `t` writes back is block `t` of the layer's output of the four arrays as the region finds them. -/
theorem flushed3 (c : Dev nD) (t : Fin cfg3.N) :
    (dat3 V c).flushed 4 t = ((cfg3.win 4).blk t).view.read (Elt Ideal) (lsm (V c main_v57) (V c main_v45) (V c main_v12) (V c main_v30)) := by
  show (cfg3.win 4).cut (grid3.coords t) ((dat3 V c).after 4 t) = _
  rw [after3_4]
  unfold out3_4
  rw [View.canon_unit_zero hz]
  simp only [View.ld_unit_zero (S := S10000x40) hz, View.ld_unit_zero (S := S10000x1) hz, View.ld_unit_zero (S := S1x40) hz]
  obtain ⟨e0, e1, e2, e3, e4, e5, e6, e7, e8, e9⟩ := idx_facts3 t
  funext j
  show k3_pay1 (iblk3 V c 0 t) (iblk3 V c 1 t) (iblk3 V c 2 t) (iblk3 V c 3 t) j
    = lsmAt (V c main_v57) (V c main_v45) (V c main_v12) (V c main_v30) ((((cfg3.win 4).blk t).view.emb j) 0) ((((cfg3.win 4).blk t).view.emb j) 1)
  refine (congrArg (k3_pay1 (iblk3 V c 0 t) (iblk3 V c 1 t) (iblk3 V c 2 t) (iblk3 V c 3 t)) (eq_ix2 j)).trans ?_
  refine (pay3_at (iblk3 V c 0 t) (iblk3 V c 1 t) (iblk3 V c 2 t) (iblk3 V c 3 t) (j 0) (j 1)).trans ?_
  refine (lsmAt_rows (iblk3 V c 0 t) (iblk3 V c 1 t) (iblk3 V c 2 t) (iblk3 V c 3 t)
    (V c main_v57) (V c main_v45) (V c main_v12) (V c main_v30) (j 0) ((((cfg3.win 4).blk t).view.emb j) 0)
    (fun q => ?_) (fun q => ?_) ?_ (fun q => ?_) (j 1)).trans ?_
  · show V c main_v57 (((cfg3.win 0).blk t).view.emb (ix2 (j 0) q)) = V c main_v57 (ix2 ((((cfg3.win 4).blk t).view.emb j) 0) q)
    refine congrArg (V c main_v57) (funext fun a => Fin.ext ?_)
    match a with
    | ⟨0, _⟩ => show win3_0.index t (0 : Fin 2) * 10000 + 1 * (j 0).val = win3_4.index t (0 : Fin 2) * 10000 + 1 * (j 0).val; omega
    | ⟨1, _⟩ => show win3_0.index t (1 : Fin 2) * 40 + 1 * q.val = q.val; omega
  · show V c main_v45 (((cfg3.win 1).blk t).view.emb (ix2 (j 0) q)) = V c main_v45 (ix2 ((((cfg3.win 4).blk t).view.emb j) 0) q)
    refine congrArg (V c main_v45) (funext fun a => Fin.ext ?_)
    match a with
    | ⟨0, _⟩ => show win3_1.index t (0 : Fin 2) * 10000 + 1 * (j 0).val = win3_4.index t (0 : Fin 2) * 10000 + 1 * (j 0).val; omega
    | ⟨1, _⟩ => show win3_1.index t (1 : Fin 2) * 40 + 1 * q.val = q.val; omega
  · show V c main_v12 (((cfg3.win 2).blk t).view.emb (ix2 (j 0) (0 : Fin 1))) = V c main_v12 (ix2 ((((cfg3.win 4).blk t).view.emb j) 0) (0 : Fin 1))
    refine congrArg (V c main_v12) (funext fun a => Fin.ext ?_)
    match a with
    | ⟨0, _⟩ => show win3_2.index t (0 : Fin 2) * 10000 + 1 * (j 0).val = win3_4.index t (0 : Fin 2) * 10000 + 1 * (j 0).val; omega
    | ⟨1, _⟩ => show win3_2.index t (1 : Fin 2) * 1 + 1 * 0 = 0; omega
  · show V c main_v30 (((cfg3.win 3).blk t).view.emb (ix2 (0 : Fin 1) q)) = V c main_v30 (ix2 (0 : Fin 1) q)
    refine congrArg (V c main_v30) (funext fun a => Fin.ext ?_)
    match a with
    | ⟨0, _⟩ => show win3_3.index t (0 : Fin 2) * 1 + 1 * 0 = 0; omega
    | ⟨1, _⟩ => show win3_3.index t (1 : Fin 2) * 40 + 1 * q.val = q.val; omega
  · exact congrArg (lsmAt (V c main_v57) (V c main_v45) (V c main_v12) (V c main_v30) ((((cfg3.win 4).blk t).view.emb j) 0))
      (Fin.ext (by show (j 1).val = win3_4.index t (1 : Fin 2) * 40 + 1 * (j 1).val; omega))

/-- An index of the output array is in point `t`'s block iff each coordinate is in the block's range on its axis. -/
theorem mem_blk3 (t : Fin cfg3.N) (i : S100000x40.Idx) :
    i ∈ ((cfg3.win 4).blk t).view.set ↔ ∀ a : Fin 2, win3_4.index t a * S10000x40.size a ≤ (i a).val ∧ (i a).val < win3_4.index t a * S10000x40.size a + S10000x40.size a := by
  show i ∈ ((View.whole main_v58).slice (win3_4.rect t)).set ↔ _
  rw [View.set_slice_whole, Rect.mem_set_unit]
  exact Iff.rfl

/-- The ten blocks of 10000 rows tile the 100000 rows: row `r` is in the block of point `r / 10000`. -/
theorem cover3 (i : S100000x40.Idx) : ∃ t : Fin cfg3.N, (cfg3.win 4).flush t = true ∧ i ∈ ((cfg3.win 4).blk t).view.set := by
  have hi0 : (i 0).val < 100000 := (i 0).isLt
  have hi1 : (i 1).val < 40 := (i 1).isLt
  have hN : grid3.N = 10 := N_3
  let t : Fin cfg3.N := ⟨(i 0).val / 10000, by show _ < grid3.N; omega⟩
  obtain ⟨e0, e1, e2, e3, e4, e5, e6, e7, e8, e9⟩ := idx_facts3 t
  have ht : t.val = (i 0).val / 10000 := rfl
  refine ⟨t, flush3_4 t, ?_⟩
  rw [mem_blk3]
  intro a
  match a with
  | ⟨0, _⟩ => show win3_4.index t (0 : Fin 2) * 10000 ≤ (i 0).val ∧ (i 0).val < win3_4.index t (0 : Fin 2) * 10000 + 10000; omega
  | ⟨1, _⟩ => show win3_4.index t (1 : Fin 2) * 40 ≤ (i 1).val ∧ (i 1).val < win3_4.index t (1 : Fin 2) * 40 + 40; omega

/-- The output array after the region: the layer's output of the four arrays as the region finds them. -/
theorem final3 (c : Dev nD) : (dat3 V c).arrAt 4 cfg3.N = lsm (V c main_v57) (V c main_v45) (V c main_v12) (V c main_v30) :=
  (dat3 V c).arrAt_eq_of_cover 4 (lsm (V c main_v57) (V c main_v45) (V c main_v12) (V c main_v30)) (fun t _ => flushed3 V c t) cover3

end Cert.KernelIdeal.Combine

end
-- ==== Proof.RefLayers.lean ====
/-
  The reference's stages that the kernel computes in its four regions, as the same whole-array functions.

  Read index by index through the generated stage lemmas, on the extended reals:
  * the reference's two `dot_general`s are `Gcn.mm` of their operands (a sum over the 64 contracted coordinates);
  * its first layer's tail — aggregate plus features times the squared inverse-root degree spread along the rows, plus the
    bias spread down the rows, then `maximum` with zero — is `Gcn.relu` of the aggregate, the features, the degree COLUMN
    and the bias ROW: a column spread over the lanes reads its row's entry, a row spread over the rows its lane's;
  * its second layer's tail followed by jax's `log_softmax` — the row maximum (a fold of `max` from `−∞`, and one more
    `max` with `−∞`, which changes nothing since the fold already starts there), the shift, `exp`, the row sum from zero,
    `log`, the second shift — is `Gcn.lsm` of the same four.
-/
import proofs.«132426_j6605659701280_1_alg».proof.Proof.RefRead
import proofs.«132426_j6605659701280_1_alg».proof.Proof.Spec
import Idealize.ShloMosaic.PureOps.Reduce

set_option maxRecDepth 16384

noncomputable section

namespace Cert.ReferenceIdeal.Layers

open Cert.ReferenceIdeal Cert.ReferenceIdeal.Gen Cert.ReferenceIdeal.ReadP Cert.Gcn
open Idealize.ShloMosaic Idealize.ShloMosaic.TcCoe Idealize.ShloMosaic.ValueIdx

variable (x0 : (⟨S100000x64, .f32⟩ : BufTy).Contents (Elt Ideal)) (x1 : (⟨S2x800000, .i32⟩ : BufTy).Contents (Elt Ideal)) (x2 : (⟨S64x64, .f32⟩ : BufTy).Contents (Elt Ideal)) (x3 : (⟨S64, .f32⟩ : BufTy).Contents (Elt Ideal)) (x4 : (⟨S64x40, .f32⟩ : BufTy).Contents (Elt Ideal)) (x5 : (⟨S40, .f32⟩ : BufTy).Contents (Elt Ideal))

/-! ## The two feature transforms -/

theorem mm_eq_v4 : mm (n := 100000) (d := 64) x0 x2 = val_main_v4 (F := Ideal) x0 x2 := by
  funext i
  rw [val_main_v4_apply]
  show ∑ k : Fin 64, x0 (ix2 (i 0) k) * x2 (ix2 k (i 1)) = _
  refine Finset.sum_congr rfl fun k _ => congrArg₂ (· * ·) (congrArg x0 ?_) (congrArg x2 ?_)
  · exact funext fun a => Fin.ext (by match a with | ⟨0, _⟩ => rfl | ⟨1, _⟩ => rfl)
  · exact funext fun a => Fin.ext (by match a with | ⟨0, _⟩ => rfl | ⟨1, _⟩ => rfl)

theorem mm_eq_v49 : mm (n := 100000) (d := 40) (val_main_v48 (F := Ideal) x0 x1 x2 x3) x4 = val_main_v49 (F := Ideal) x0 x1 x2 x3 x4 := by
  funext i
  rw [val_main_v49_apply]
  generalize val_main_v48 (F := Ideal) x0 x1 x2 x3 = y
  show ∑ k : Fin 64, y (ix2 (i 0) k) * x4 (ix2 k (i 1)) = _
  refine Finset.sum_congr rfl fun k _ => congrArg₂ (· * ·) (congrArg y ?_) (congrArg x4 ?_)
  · exact funext fun a => Fin.ext (by match a with | ⟨0, _⟩ => rfl | ⟨1, _⟩ => rfl)
  · exact funext fun a => Fin.ext (by match a with | ⟨0, _⟩ => rfl | ⟨1, _⟩ => rfl)

/-! ## The first layer's tail and the clamp at zero -/

theorem preact1 (p : Fin 100000) (q : Fin 64) :
    val_main_v47 (F := Ideal) x0 x1 x2 x3 (ix2 p q) = zAt (n := 100000) (d := 64) (val_main_v39 (F := Ideal) x0 x1 x2) (val_main_v4 (F := Ideal) x0 x2) (val_main_v41 (F := Ideal) x1) (val_main_v45 (F := Ideal) x3) p q := by
  rw [val_main_v47_apply, val_main_v44_apply, val_main_v43_apply, val_main_v42_apply, val_main_v46_apply]
  have e1 : idx_main_v42 (ix2 p q) = ix2 p (0 : Fin 1) := funext fun a => Fin.ext (by match a with | ⟨0, _⟩ => rfl | ⟨1, _⟩ => rfl)
  have e2 : idx_main_v46 (ix2 p q) = ix2 (0 : Fin 1) q := funext fun a => Fin.ext (by match a with | ⟨0, _⟩ => rfl | ⟨1, _⟩ => rfl)
  rw [e1, e2]
  rfl

theorem relu_eq_v48 : relu (n := 100000) (d := 64) (val_main_v39 (F := Ideal) x0 x1 x2) (val_main_v4 (F := Ideal) x0 x2) (val_main_v41 (F := Ideal) x1) (val_main_v45 (F := Ideal) x3) = val_main_v48 (F := Ideal) x0 x1 x2 x3 := by
  funext i
  obtain ⟨p, q, rfl⟩ : ∃ (p : Fin 100000) (q : Fin 64), i = ix2 p q := ⟨i 0, i 1, eq_ix2 i⟩
  rw [val_main_v48_apply, preact1, val_main_call0_v0_apply, val_main_call0_cst_apply]
  rfl

/-! ## The second layer's tail and the row-wise log-softmax -/

theorem preact2 (p : Fin 100000) (q : Fin 40) :
    val_main_v92 (F := Ideal) x0 x1 x2 x3 x4 x5 (ix2 p q) = zAt (n := 100000) (d := 40) (val_main_v84 (F := Ideal) x0 x1 x2 x3 x4) (val_main_v49 (F := Ideal) x0 x1 x2 x3 x4) (val_main_v86 (F := Ideal) x1) (val_main_v90 (F := Ideal) x5) p q := by
  rw [val_main_v92_apply, val_main_v89_apply, val_main_v88_apply, val_main_v87_apply, val_main_v91_apply]
  have e1 : idx_main_v87 (ix2 p q) = ix2 p (0 : Fin 1) := funext fun a => Fin.ext (by match a with | ⟨0, _⟩ => rfl | ⟨1, _⟩ => rfl)
  have e2 : idx_main_v91 (ix2 p q) = ix2 (0 : Fin 1) q := funext fun a => Fin.ext (by match a with | ⟨0, _⟩ => rfl | ⟨1, _⟩ => rfl)
  rw [e1, e2]
  rfl

/-- On the extended reals a maximum folded from `c` is at least `c`, so one more maximum with `c` changes nothing. -/
theorem fold_max_absorb {ι : Type} [Fintype ι] (z : ι → EReal) (c c' : EReal) (hc : c' = c) :
    FloatOps.maximumf (F := Ideal) (φ := .f32) c ((Finset.univ : Finset ι).fold (FloatOps.maximumf (F := Ideal) (φ := .f32)) c' z)
      = (Finset.univ : Finset ι).fold max c z := by
  subst hc
  show max c' ((Finset.univ : Finset ι).fold max c' z) = _
  exact max_eq_right ((Finset.le_fold_max (s := Finset.univ) (f := z) (b := c') (c := c')).2 (Or.inl le_rfl))

/-- For ANY `[100000, 40]` array `y`: its row maximum by the host's reduce from `−∞`, maxed once more with `−∞`, is the fold of
    `max` over the row's 40 lanes from `−∞`. (Stated over an arbitrary array, so that nothing of the program stands under it.) -/
theorem row_max_any (y : (⟨S100000x40, .f32⟩ : BufTy).Contents (Elt Ideal)) (p : Fin 100000) :
    FloatOps.maximumf (F := Ideal) (φ := .f32) (FloatOps.ofBits (F := Ideal) .f32 0xFF800000#32)
        ((Host.reduce (FloatOps.maximumf (F := Ideal) (φ := .f32)) y (val_main_call1_cst (F := Ideal)) reducesTo_S100000x40_S100000_d1 h_S_ :
          (⟨S100000, .f32⟩ : BufTy).Contents (Elt Ideal)) (ix1 p))
      = (Finset.univ : Finset (Fin 40)).fold max (Ideal.ofBits .f32 0xFF800000#32) (fun k => y (ix2 p k)) := by
  have hR : S100000x40.Reduces [1] S100000 := by decide
  have hrow : (y ∘ hR.lift (ix1 p)) = fun k : Fin 40 => y (ix2 p k) :=
    funext fun k => congrArg y (funext fun a => Fin.ext (by match a with | ⟨0, _⟩ => rfl | ⟨1, _⟩ => rfl))
  have h1 := Host.reduce_eq_fold_single (α := Ideal .f32) (FloatOps.maximumf (F := Ideal) (φ := .f32)) y (val_main_call1_cst (F := Ideal))
    reducesTo_S100000x40_S100000_d1 hR h_S_ (ix1 p)
  rw [hrow] at h1
  refine (congrArg (FloatOps.maximumf (FloatOps.ofBits (F := Ideal) .f32 0xFF800000#32)) h1).trans ?_
  exact fold_max_absorb (ι := Fin 40) (fun k : Fin 40 => y (ix2 p k))
    (Ideal.ofBits .f32 0xFF800000#32) (val_main_call1_cst (F := Ideal) (Shape.Idx.first h_S_)) rfl

/-- The reference's row maximum is the specification's: the row of the pre-activation, entry by entry, is `zAt`. -/
theorem rowmax2 (p : Fin 100000) :
    val_main_call1_v2 (F := Ideal) x0 x1 x2 x3 x4 x5 (ix1 p) = rowMax (n := 100000) (d := 40) (val_main_v84 (F := Ideal) x0 x1 x2 x3 x4) (val_main_v49 (F := Ideal) x0 x1 x2 x3 x4) (val_main_v86 (F := Ideal) x1) (val_main_v90 (F := Ideal) x5) p := by
  rw [val_main_call1_v2_apply, val_main_call1_v1_apply, val_main_call1_cst_0_apply]
  unfold val_main_call1_v0 rowMax
  rw [show (fun k : Fin 40 => zAt (n := 100000) (d := 40) (val_main_v84 (F := Ideal) x0 x1 x2 x3 x4) (val_main_v49 (F := Ideal) x0 x1 x2 x3 x4) (val_main_v86 (F := Ideal) x1) (val_main_v90 (F := Ideal) x5) p k)
      = fun k : Fin 40 => val_main_v92 (F := Ideal) x0 x1 x2 x3 x4 x5 (ix2 p k) from funext fun k => (preact2 x0 x1 x2 x3 x4 x5 p k).symm]
  generalize val_main_v92 (F := Ideal) x0 x1 x2 x3 x4 x5 = y
  exact row_max_any y p

/-- The shifted pre-activation. -/
theorem shifted2 (p : Fin 100000) (q : Fin 40) :
    val_main_call1_v5 (F := Ideal) x0 x1 x2 x3 x4 x5 (ix2 p q)
      = zAt (n := 100000) (d := 40) (val_main_v84 (F := Ideal) x0 x1 x2 x3 x4) (val_main_v49 (F := Ideal) x0 x1 x2 x3 x4) (val_main_v86 (F := Ideal) x1) (val_main_v90 (F := Ideal) x5) p q - rowMax (n := 100000) (d := 40) (val_main_v84 (F := Ideal) x0 x1 x2 x3 x4) (val_main_v49 (F := Ideal) x0 x1 x2 x3 x4) (val_main_v86 (F := Ideal) x1) (val_main_v90 (F := Ideal) x5) p := by
  rw [val_main_call1_v5_apply, val_main_call1_v4_apply, val_main_call1_v3_apply, preact2]
  have e : idx_main_call1_v3 (idx_main_call1_v4 (ix2 p q)) = ix1 p := funext fun a => Fin.ext (by match a with | ⟨0, _⟩ => rfl)
  rw [e, rowmax2]
  rfl

/-- The logarithm of the row's sum of exponentials, spread back over the lanes. -/
theorem logsum2 (p : Fin 100000) (q : Fin 40) :
    val_main_call1_v10 (F := Ideal) x0 x1 x2 x3 x4 x5 (ix2 p q)
      = Ideal.log (∑ k : Fin 40, Ideal.exp (zAt (n := 100000) (d := 40) (val_main_v84 (F := Ideal) x0 x1 x2 x3 x4) (val_main_v49 (F := Ideal) x0 x1 x2 x3 x4) (val_main_v86 (F := Ideal) x1) (val_main_v90 (F := Ideal) x5) p k - rowMax (n := 100000) (d := 40) (val_main_v84 (F := Ideal) x0 x1 x2 x3 x4) (val_main_v49 (F := Ideal) x0 x1 x2 x3 x4) (val_main_v86 (F := Ideal) x1) (val_main_v90 (F := Ideal) x5) p)) := by
  rw [val_main_call1_v10_apply, val_main_call1_v9_apply, val_main_call1_v8_apply, val_main_call1_v7_apply, val_main_call1_cst_1_apply,
    Ideal.hostUnary_log_def]
  refine congrArg Ideal.log ?_
  refine (congrArg (· + _) Ideal.ofBits_zero_f32).trans ((zero_add _).trans ?_)
  refine Finset.sum_congr rfl fun k _ => ?_
  rw [show idx_main_call1_v7 (idx_main_call1_v8 (idx_main_call1_v10 (ix2 p q))) k = ix2 p k from funext fun a => Fin.ext (by match a with | ⟨0, _⟩ => rfl | ⟨1, _⟩ => rfl),
    val_main_call1_v6_apply, shifted2, Ideal.hostUnary_exp_def]

theorem lsm_eq_v93 : lsm (n := 100000) (d := 40) (val_main_v84 (F := Ideal) x0 x1 x2 x3 x4) (val_main_v49 (F := Ideal) x0 x1 x2 x3 x4) (val_main_v86 (F := Ideal) x1) (val_main_v90 (F := Ideal) x5) = val_main_v93 (F := Ideal) x0 x1 x2 x3 x4 x5 := by
  funext i
  obtain ⟨p, q, rfl⟩ : ∃ (p : Fin 100000) (q : Fin 40), i = ix2 p q := ⟨i 0, i 1, eq_ix2 i⟩
  rw [val_main_v93_apply, shifted2, logsum2]
  rfl

end Cert.ReferenceIdeal.Layers

end
-- ==== Proof.LibReshapeAsBroadcast.lean ====
/-
  A flat array seen as a column or as a row, in two spellings that are one array.

  Reshaping an `[a]` array to the column `[a, 1]` and placing it along axis 0 of an `[a, 1]` array by a
  `broadcast_in_dim` give the same array: row-major, the element at `(i, 0)` of the column is the element at `i`
  (`i · 1 + 0 = i`), and the broadcast reads the operand at the coordinate its one dimension is mapped to. Likewise for
  the row `[1, a]` with the operand placed along axis 1 (`0 · a + i = i`). What a `reshape(n, 1)` on one side of an
  equivalence and a `[:, None]` on the other come to.
-/
import Idealize.ShloMosaic.Lib.ValueLayout
import proofs.«132426_j6605659701280_1_alg».proof.Proof.LibKeepdimsColumn

noncomputable section

namespace Cert.Lib.ReshapeAsBroadcast

open Idealize.ShloMosaic Idealize.ShloMosaic.ValueIdx

variable {α : Type}

/-- An `[a]` array reshaped to the column `[a, 1]` is the array broadcast in dimension 0 of `[a, 1]`. -/
theorem column_eq {a : ℕ} (x : (⟨1, ![a]⟩ : Shape).Idx → α) (h : (⟨1, ![a]⟩ : Shape).ShapeCasts ⟨2, ![a, 1]⟩)
    (hb : (⟨1, ![a]⟩ : Shape).BroadcastsInDim ⟨2, ![a, 1]⟩ ![0]) :
    shapeCast ⟨2, ![a, 1]⟩ x h = broadcastInDim ⟨2, ![a, 1]⟩ ![0] hb x := by
  funext j
  obtain ⟨i, u, rfl⟩ : ∃ (i : Fin a) (u : Fin 1), j = ix2 i u := ⟨j 0, j 1, eq_ix2 j⟩
  refine (Cert.LibKeepdims.shapeCast_a_a1_apply x h i u).trans (broadcastInDim_apply ![0] hb x (ix2 i u) (ix1 i) fun ax => ?_).symm
  match ax with
  | ⟨0, _⟩ =>
    show i.val = if a = 1 then 0 else i.val
    split
    · have := i.isLt; omega
    · rfl

/-- An `[a]` array reshaped to the row `[1, a]` is the array broadcast in dimension 1 of `[1, a]`. -/
theorem row_eq {a : ℕ} (x : (⟨1, ![a]⟩ : Shape).Idx → α) (h : (⟨1, ![a]⟩ : Shape).ShapeCasts ⟨2, ![1, a]⟩)
    (hb : (⟨1, ![a]⟩ : Shape).BroadcastsInDim ⟨2, ![1, a]⟩ ![1]) :
    shapeCast ⟨2, ![1, a]⟩ x h = broadcastInDim ⟨2, ![1, a]⟩ ![1] hb x := by
  funext j
  obtain ⟨u, i, rfl⟩ : ∃ (u : Fin 1) (i : Fin a), j = ix2 u i := ⟨j 0, j 1, eq_ix2 j⟩
  refine (shapeCast_a_1a_apply x h u i).trans (broadcastInDim_apply ![1] hb x (ix2 u i) (ix1 i) fun ax => ?_).symm
  match ax with
  | ⟨0, _⟩ =>
    show i.val = if a = 1 then 0 else i.val
    split
    · have := i.isLt; omega
    · rfl

end Cert.Lib.ReshapeAsBroadcast

end
-- ==== Proof.KernelStages.lean ====
/-
  The idealized kernel's result, boundary by boundary.

  @main alternates stretches of host operations with the four regions. Every stretch is evaluated over an ARBITRARY
  incoming valuation `W`, and its results are stated as the REFERENCE's stage functions of the arguments: the two programs
  apply the same operations there (the edge lists, the degree count and its inverse root, the symmetric normalisation, the
  gather of source rows, the scatter-add into target rows), so once the inputs of a stretch are the reference's stages its
  outputs are too — up to three spellings that differ and are the same array: the kernel reshapes the squared inverse-root
  degrees and the edge weights to columns and the biases to rows, where the reference broadcasts them in a dimension.
  The regions' outputs are `Gcn.mm`, `Gcn.relu`, `Gcn.mm`, `Gcn.lsm` of the arrays they find, which the reference's
  `dot_general`s, clamp and log-softmax are as well. Chaining the seven boundaries, the result buffer ends at the
  reference's last stage function of the kernel's own arguments.
-/
import proofs.«132426_j6605659701280_1_alg».proof.Proof.KernelRun
import proofs.«132426_j6605659701280_1_alg».proof.Proof.TransformRegions
import proofs.«132426_j6605659701280_1_alg».proof.Proof.CombineRegions
import proofs.«132426_j6605659701280_1_alg».proof.Proof.RefLayers
import proofs.«132426_j6605659701280_1_alg».proof.Proof.LibReshapeAsBroadcast
import Idealize.ShloMosaic.Lib.StableHlo.Run

set_option maxRecDepth 16384

noncomputable section

namespace Cert.KernelIdeal.Stages

open Cert.KernelIdeal Cert.KernelIdeal.Gen Cert.Gcn Cert.ReferenceIdeal.ReadP Cert.ReferenceIdeal.Layers
open Idealize.ShloMosaic Idealize.ShloMosaic.TcCoe Idealize.SL.Sem Idealize.ShloMosaic.StableHlo

/-! ## The host stretches over an arbitrary incoming valuation -/

section Stretches

variable (W : Valuation τ sig (Elt Ideal))

/-! ### Before the first region: the edge lists, the degree column, the edge-weight column, the bias rows -/

theorem h0_v1 : after hostOps0 W (Proc.devRef .tc main_v1) = val_main_v1 (F := Ideal) (W (Proc.devRef .tc main_arg1)) := by
  after_results_simp <;> rfl
theorem h0_v3 : after hostOps0 W (Proc.devRef .tc main_v3) = val_main_v3 (F := Ideal) (W (Proc.devRef .tc main_arg1)) := by
  after_results_simp <;> rfl
/-- The squared inverse-root degrees as a column: reshaped here, broadcast in dimension 0 there. -/
theorem h0_v12 : after hostOps0 W (Proc.devRef .tc main_v12) = val_main_v41 (F := Ideal) (W (Proc.devRef .tc main_arg1)) := by
  after_results_simp
  refine (Cert.Lib.ReshapeAsBroadcast.column_eq _ _ Cert.ReferenceIdeal.Gen.bcast_S100000_S100000x1_0).trans ?_
  rfl
/-- The edge weights as a column. -/
theorem h0_v28 : after hostOps0 W (Proc.devRef .tc main_v28) = val_main_v34 (F := Ideal) (W (Proc.devRef .tc main_arg1)) := by
  after_results_simp
  refine (Cert.Lib.ReshapeAsBroadcast.column_eq _ _ Cert.ReferenceIdeal.Gen.bcast_S800000_S800000x1_0).trans ?_
  rfl
/-- The first layer's bias as a row. -/
theorem h0_v29 : after hostOps0 W (Proc.devRef .tc main_v29) = val_main_v45 (F := Ideal) (W (Proc.devRef .tc main_arg3)) := by
  after_results_simp
  refine (Cert.Lib.ReshapeAsBroadcast.row_eq _ _ Cert.ReferenceIdeal.Gen.bcast_S64_S1x64_1).trans ?_
  rfl
/-- The second layer's bias as a row. -/
theorem h0_v30 : after hostOps0 W (Proc.devRef .tc main_v30) = val_main_v90 (F := Ideal) (W (Proc.devRef .tc main_arg5)) := by
  after_results_simp
  refine (Cert.Lib.ReshapeAsBroadcast.row_eq _ _ Cert.ReferenceIdeal.Gen.bcast_S40_S1x40_1).trans ?_
  rfl
theorem h0_arg0 : after hostOps0 W (Proc.devRef .tc main_arg0) = W (Proc.devRef .tc main_arg0) := by after_results_simp <;> rfl
theorem h0_arg2 : after hostOps0 W (Proc.devRef .tc main_arg2) = W (Proc.devRef .tc main_arg2) := by after_results_simp <;> rfl
theorem h0_arg4 : after hostOps0 W (Proc.devRef .tc main_arg4) = W (Proc.devRef .tc main_arg4) := by after_results_simp <;> rfl

/-! ### Between the first two regions: the first layer's messages and their aggregate -/

theorem h1_v43 (x0 : (⟨Cert.ReferenceIdeal.S100000x64, .f32⟩ : BufTy).Contents (Elt Ideal)) (x1 : (⟨Cert.ReferenceIdeal.S2x800000, .i32⟩ : BufTy).Contents (Elt Ideal))
    (x2 : (⟨Cert.ReferenceIdeal.S64x64, .f32⟩ : BufTy).Contents (Elt Ideal))
    (h1 : W (Proc.devRef .tc main_v1) = val_main_v1 (F := Ideal) x1) (h3 : W (Proc.devRef .tc main_v3) = val_main_v3 (F := Ideal) x1)
    (h28 : W (Proc.devRef .tc main_v28) = val_main_v34 (F := Ideal) x1) (h31 : W (Proc.devRef .tc main_v31) = val_main_v4 (F := Ideal) x0 x2) :
    after hostOps1 W (Proc.devRef .tc main_v43) = val_main_v39 (F := Ideal) x0 x1 x2 := by
  after_results_simp
  rw [h1, h3, h28, h31]
  rfl
theorem h1_v31 : after hostOps1 W (Proc.devRef .tc main_v31) = W (Proc.devRef .tc main_v31) := by after_results_simp <;> rfl
theorem h1_v12 : after hostOps1 W (Proc.devRef .tc main_v12) = W (Proc.devRef .tc main_v12) := by after_results_simp <;> rfl
theorem h1_v29 : after hostOps1 W (Proc.devRef .tc main_v29) = W (Proc.devRef .tc main_v29) := by after_results_simp <;> rfl
theorem h1_v1 : after hostOps1 W (Proc.devRef .tc main_v1) = W (Proc.devRef .tc main_v1) := by after_results_simp <;> rfl
theorem h1_v3 : after hostOps1 W (Proc.devRef .tc main_v3) = W (Proc.devRef .tc main_v3) := by after_results_simp <;> rfl
theorem h1_v28 : after hostOps1 W (Proc.devRef .tc main_v28) = W (Proc.devRef .tc main_v28) := by after_results_simp <;> rfl
theorem h1_v30 : after hostOps1 W (Proc.devRef .tc main_v30) = W (Proc.devRef .tc main_v30) := by after_results_simp <;> rfl
theorem h1_arg4 : after hostOps1 W (Proc.devRef .tc main_arg4) = W (Proc.devRef .tc main_arg4) := by after_results_simp <;> rfl

/-! ### Between the last two regions: the second layer's messages and their aggregate -/

theorem h3_v57 (x0 : (⟨Cert.ReferenceIdeal.S100000x64, .f32⟩ : BufTy).Contents (Elt Ideal)) (x1 : (⟨Cert.ReferenceIdeal.S2x800000, .i32⟩ : BufTy).Contents (Elt Ideal))
    (x2 : (⟨Cert.ReferenceIdeal.S64x64, .f32⟩ : BufTy).Contents (Elt Ideal)) (x3 : (⟨Cert.ReferenceIdeal.S64, .f32⟩ : BufTy).Contents (Elt Ideal))
    (x4 : (⟨Cert.ReferenceIdeal.S64x40, .f32⟩ : BufTy).Contents (Elt Ideal))
    (h1 : W (Proc.devRef .tc main_v1) = val_main_v1 (F := Ideal) x1) (h3 : W (Proc.devRef .tc main_v3) = val_main_v3 (F := Ideal) x1)
    (h28 : W (Proc.devRef .tc main_v28) = val_main_v79 (F := Ideal) x1) (h45 : W (Proc.devRef .tc main_v45) = val_main_v49 (F := Ideal) x0 x1 x2 x3 x4) :
    after hostOps3 W (Proc.devRef .tc main_v57) = val_main_v84 (F := Ideal) x0 x1 x2 x3 x4 := by
  after_results_simp
  rw [h1, h3, h28, h45]
  rfl
theorem h3_v45 : after hostOps3 W (Proc.devRef .tc main_v45) = W (Proc.devRef .tc main_v45) := by after_results_simp <;> rfl
theorem h3_v12 : after hostOps3 W (Proc.devRef .tc main_v12) = W (Proc.devRef .tc main_v12) := by after_results_simp <;> rfl
theorem h3_v30 : after hostOps3 W (Proc.devRef .tc main_v30) = W (Proc.devRef .tc main_v30) := by after_results_simp <;> rfl

end Stretches

/-- The reference computes the edge weights and the degree column once per layer; the two copies are one function. -/
theorem weights_twice (x1 : (⟨Cert.ReferenceIdeal.S2x800000, .i32⟩ : BufTy).Contents (Elt Ideal)) :
    val_main_v79 (F := Ideal) x1 = val_main_v34 (F := Ideal) x1 := rfl
theorem degrees_twice (x1 : (⟨Cert.ReferenceIdeal.S2x800000, .i32⟩ : BufTy).Contents (Elt Ideal)) :
    val_main_v86 (F := Ideal) x1 = val_main_v41 (F := Ideal) x1 := rfl

/-! ## The seven boundaries -/

section Boundaries

variable (m : (ℓ : Loc nD τ sig) → Buf (Elt Ideal) ℓ) (ρ : Dev nD → PrngReg) (c : Dev nD)

/-! ### After the first host stretch -/
theorem b1_v1 : W1 m ρ c (Proc.devRef .tc main_v1) = val_main_v1 (F := Ideal) (m ((c : Thread nD τ).loc main_arg1)) := h0_v1 (W0 m ρ c)
theorem b1_v3 : W1 m ρ c (Proc.devRef .tc main_v3) = val_main_v3 (F := Ideal) (m ((c : Thread nD τ).loc main_arg1)) := h0_v3 (W0 m ρ c)
theorem b1_v12 : W1 m ρ c (Proc.devRef .tc main_v12) = val_main_v41 (F := Ideal) (m ((c : Thread nD τ).loc main_arg1)) := h0_v12 (W0 m ρ c)
theorem b1_v28 : W1 m ρ c (Proc.devRef .tc main_v28) = val_main_v34 (F := Ideal) (m ((c : Thread nD τ).loc main_arg1)) := h0_v28 (W0 m ρ c)
theorem b1_v29 : W1 m ρ c (Proc.devRef .tc main_v29) = val_main_v45 (F := Ideal) (m ((c : Thread nD τ).loc main_arg3)) := h0_v29 (W0 m ρ c)
theorem b1_v30 : W1 m ρ c (Proc.devRef .tc main_v30) = val_main_v90 (F := Ideal) (m ((c : Thread nD τ).loc main_arg5)) := h0_v30 (W0 m ρ c)
theorem b1_arg0 : W1 m ρ c (Proc.devRef .tc main_arg0) = (m ((c : Thread nD τ).loc main_arg0)) := h0_arg0 (W0 m ρ c)
theorem b1_arg2 : W1 m ρ c (Proc.devRef .tc main_arg2) = (m ((c : Thread nD τ).loc main_arg2)) := h0_arg2 (W0 m ρ c)
theorem b1_arg4 : W1 m ρ c (Proc.devRef .tc main_arg4) = (m ((c : Thread nD τ).loc main_arg4)) := h0_arg4 (W0 m ρ c)

/-! ### After the first region: the transformed features of layer 1 -/
theorem b2_v31 : W2 m ρ c (Proc.devRef .tc main_v31) = val_main_v4 (F := Ideal) (m ((c : Thread nD τ).loc main_arg0)) (m ((c : Thread nD τ).loc main_arg2)) := by
  refine (W2_arr m ρ c 2).trans ((Cert.KernelIdeal.Transform.final0 (V1 m ρ) c).trans ?_)
  rw [show V1 m ρ c main_arg0 = (m ((c : Thread nD τ).loc main_arg0)) from b1_arg0 m ρ c, show V1 m ρ c main_arg2 = (m ((c : Thread nD τ).loc main_arg2)) from b1_arg2 m ρ c]
  exact mm_eq_v4 _ _

/-! ### After the second host stretch: the aggregate of layer 1 -/
theorem b3_v43 : W3 m ρ c (Proc.devRef .tc main_v43) = val_main_v39 (F := Ideal) (m ((c : Thread nD τ).loc main_arg0)) (m ((c : Thread nD τ).loc main_arg1)) (m ((c : Thread nD τ).loc main_arg2)) :=
  h1_v43 (W2 m ρ c) _ _ _ ((W2_of_ne m ρ c main_v1 (by decide)).trans (b1_v1 m ρ c)) ((W2_of_ne m ρ c main_v3 (by decide)).trans (b1_v3 m ρ c))
    ((W2_of_ne m ρ c main_v28 (by decide)).trans (b1_v28 m ρ c)) (b2_v31 m ρ c)
theorem b3_v31 : W3 m ρ c (Proc.devRef .tc main_v31) = val_main_v4 (F := Ideal) (m ((c : Thread nD τ).loc main_arg0)) (m ((c : Thread nD τ).loc main_arg2)) := (h1_v31 (W2 m ρ c)).trans (b2_v31 m ρ c)
theorem b3_v12 : W3 m ρ c (Proc.devRef .tc main_v12) = val_main_v41 (F := Ideal) (m ((c : Thread nD τ).loc main_arg1)) :=
  (h1_v12 (W2 m ρ c)).trans ((W2_of_ne m ρ c main_v12 (by decide)).trans (b1_v12 m ρ c))
theorem b3_v29 : W3 m ρ c (Proc.devRef .tc main_v29) = val_main_v45 (F := Ideal) (m ((c : Thread nD τ).loc main_arg3)) :=
  (h1_v29 (W2 m ρ c)).trans ((W2_of_ne m ρ c main_v29 (by decide)).trans (b1_v29 m ρ c))
theorem b3_v1 : W3 m ρ c (Proc.devRef .tc main_v1) = val_main_v1 (F := Ideal) (m ((c : Thread nD τ).loc main_arg1)) :=
  (h1_v1 (W2 m ρ c)).trans ((W2_of_ne m ρ c main_v1 (by decide)).trans (b1_v1 m ρ c))
theorem b3_v3 : W3 m ρ c (Proc.devRef .tc main_v3) = val_main_v3 (F := Ideal) (m ((c : Thread nD τ).loc main_arg1)) :=
  (h1_v3 (W2 m ρ c)).trans ((W2_of_ne m ρ c main_v3 (by decide)).trans (b1_v3 m ρ c))
theorem b3_v28 : W3 m ρ c (Proc.devRef .tc main_v28) = val_main_v34 (F := Ideal) (m ((c : Thread nD τ).loc main_arg1)) :=
  (h1_v28 (W2 m ρ c)).trans ((W2_of_ne m ρ c main_v28 (by decide)).trans (b1_v28 m ρ c))
theorem b3_v30 : W3 m ρ c (Proc.devRef .tc main_v30) = val_main_v90 (F := Ideal) (m ((c : Thread nD τ).loc main_arg5)) :=
  (h1_v30 (W2 m ρ c)).trans ((W2_of_ne m ρ c main_v30 (by decide)).trans (b1_v30 m ρ c))
theorem b3_arg4 : W3 m ρ c (Proc.devRef .tc main_arg4) = (m ((c : Thread nD τ).loc main_arg4)) :=
  (h1_arg4 (W2 m ρ c)).trans ((W2_of_ne m ρ c main_arg4 (by decide)).trans (b1_arg4 m ρ c))

/-! ### After the second region: the first layer's output -/
theorem b4_v44 : W4 m ρ c (Proc.devRef .tc main_v44) = val_main_v48 (F := Ideal) (m ((c : Thread nD τ).loc main_arg0)) (m ((c : Thread nD τ).loc main_arg1)) (m ((c : Thread nD τ).loc main_arg2)) (m ((c : Thread nD τ).loc main_arg3)) := by
  refine (W4_arr m ρ c 4).trans ((Cert.KernelIdeal.Combine.final1 (V3 m ρ) c).trans ?_)
  rw [show V3 m ρ c main_v43 = _ from b3_v43 m ρ c, show V3 m ρ c main_v31 = _ from b3_v31 m ρ c,
    show V3 m ρ c main_v12 = _ from b3_v12 m ρ c, show V3 m ρ c main_v29 = _ from b3_v29 m ρ c]
  exact relu_eq_v48 _ _ _ _

/-! ### After the third region: the transformed features of layer 2 -/
theorem b5_v45 : W5 m ρ c (Proc.devRef .tc main_v45) = val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W5_arr m ρ c 2).trans ((Cert.KernelIdeal.Transform.final2 (V4 m ρ) c).trans ?_)
  rw [show V4 m ρ c main_v44 = _ from b4_v44 m ρ c,
    show V4 m ρ c main_arg4 = (m ((c : Thread nD τ).loc main_arg4)) from (W4_of_ne m ρ c main_arg4 (by decide)).trans (b3_arg4 m ρ c)]
  exact mm_eq_v49 _ _ _ _ _
theorem b5_v1 : W5 m ρ c (Proc.devRef .tc main_v1) = val_main_v1 (F := Ideal) (m ((c : Thread nD τ).loc main_arg1)) :=
  (W5_of_ne m ρ c main_v1 (by decide)).trans ((W4_of_ne m ρ c main_v1 (by decide)).trans (b3_v1 m ρ c))
theorem b5_v3 : W5 m ρ c (Proc.devRef .tc main_v3) = val_main_v3 (F := Ideal) (m ((c : Thread nD τ).loc main_arg1)) :=
  (W5_of_ne m ρ c main_v3 (by decide)).trans ((W4_of_ne m ρ c main_v3 (by decide)).trans (b3_v3 m ρ c))
theorem b5_v28 : W5 m ρ c (Proc.devRef .tc main_v28) = val_main_v79 (F := Ideal) (m ((c : Thread nD τ).loc main_arg1)) :=
  (W5_of_ne m ρ c main_v28 (by decide)).trans ((W4_of_ne m ρ c main_v28 (by decide)).trans ((b3_v28 m ρ c).trans (weights_twice _).symm))
/-- The degree column is one of the second region's input arrays: a region leaves its input arrays as it found them. -/
theorem b4_v12 : W4 m ρ c (Proc.devRef .tc main_v12) = val_main_v41 (F := Ideal) (m ((c : Thread nD τ).loc main_arg1)) :=
  (W4_arr m ρ c 2).trans ((((dat1 (V3 m ρ) c).arrAt_in 2 rfl _).trans (A_eq1 (V3 m ρ) c 2)).trans (b3_v12 m ρ c))
theorem b5_v12 : W5 m ρ c (Proc.devRef .tc main_v12) = val_main_v86 (F := Ideal) (m ((c : Thread nD τ).loc main_arg1)) :=
  (W5_of_ne m ρ c main_v12 (by decide)).trans ((b4_v12 m ρ c).trans (degrees_twice _).symm)
theorem b5_v30 : W5 m ρ c (Proc.devRef .tc main_v30) = val_main_v90 (F := Ideal) (m ((c : Thread nD τ).loc main_arg5)) :=
  (W5_of_ne m ρ c main_v30 (by decide)).trans ((W4_of_ne m ρ c main_v30 (by decide)).trans (b3_v30 m ρ c))

/-! ### After the third host stretch: the aggregate of layer 2 -/
theorem b6_v57 : W6 m ρ c (Proc.devRef .tc main_v57) = val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  h3_v57 (W5 m ρ c) _ _ _ _ _ (b5_v1 m ρ c) (b5_v3 m ρ c) (b5_v28 m ρ c) (b5_v45 m ρ c)
theorem b6_v45 : W6 m ρ c (Proc.devRef .tc main_v45) = val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (h3_v45 (W5 m ρ c)).trans (b5_v45 m ρ c)
theorem b6_v12 : W6 m ρ c (Proc.devRef .tc main_v12) = val_main_v86 (F := Ideal) (m ((c : Thread nD τ).loc main_arg1)) := (h3_v12 (W5 m ρ c)).trans (b5_v12 m ρ c)
theorem b6_v30 : W6 m ρ c (Proc.devRef .tc main_v30) = val_main_v90 (F := Ideal) (m ((c : Thread nD τ).loc main_arg5)) := (h3_v30 (W5 m ρ c)).trans (b5_v30 m ρ c)

/-! ### After the fourth region: the result -/

/-- The value both programs end at: the reference's last stage function of this program's six argument arrays. -/
abbrev resultOf : (⟨Cert.ReferenceIdeal.S100000x40, .f32⟩ : BufTy).Contents (Elt Ideal) :=
  val_main_v93 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

theorem result_eq : W7 m ρ c (Proc.devRef .tc main_v58) = resultOf m c := by
  refine (W7_arr m ρ c 4).trans ((Cert.KernelIdeal.Combine.final3 (V6 m ρ) c).trans ?_)
  rw [show V6 m ρ c main_v57 = _ from b6_v57 m ρ c, show V6 m ρ c main_v45 = _ from b6_v45 m ρ c,
    show V6 m ρ c main_v12 = _ from b6_v12 m ρ c, show V6 m ρ c main_v30 = _ from b6_v30 m ρ c]
  exact lsm_eq_v93 _ _ _ _ _ _

end Boundaries

end Cert.KernelIdeal.Stages

end
-- ==== Proof.RefStages.lean ====
/-
  The reference's run, read back a stretch at a time.

  The reference's @main is 130 host operations in static single assignment. Its run ends with every buffer at the fold
  of the operations' results over the launch contents. Here the list is cut into nine consecutive stretches —
  the edge lists and the first feature transform; the first layer's normalisation, messages, aggregate, self-loop and bias;
  the clamp at zero and the second feature transform; the second layer's same chain; and the row-wise log-softmax in five
  pieces — and each stretch is evaluated over an ARBITRARY incoming valuation `W`: its result is the generated stage
  function of the arguments as soon as `W` holds the stage functions at the buffers the stretch reads. The two pieces that
  hold the row maximum are stated first for arbitrary contents of what they read (the first of them for an arbitrary
  function in the reduction's place) and specialised to the stage functions afterwards. Chaining the nine gives the result buffer after the whole list at the last stage function of the launch
  contents of the six arguments; no stretch writes an argument.
-/
import proofs.«132426_j6605659701280_1_alg».proof.Proof.RefRead

set_option maxRecDepth 16384

noncomputable section

namespace Cert.ReferenceIdeal.Stages

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- The fold over a list cut in two is the fold over the second part from the fold over the first. -/
theorem after_append (l₁ l₂ : List (HloOp τ sig (Elt F))) (W : Valuation τ sig (Elt F)) :
    after (l₁ ++ l₂) W = after l₂ (after l₁ W) := by
  induction l₁ generalizing W with
  | nil => rfl
  | cons op l ih => simp only [List.cons_append, after_cons, ih]

/-- The edge lists (sources, targets) and the first feature transform. -/
abbrev s1 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    binary main_arg0 main_arg2 main_v4 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) ]

/-- The first layer up to its pre-activation. -/
abbrev s2 : List (HloOp τ sig (Elt F)) :=
  [ nullary main_cst (constant S_ .f32 0x3F800000#32),
    unary main_cst main_v5 (broadcastInDim S800000 ![] bcast_S_S800000 : (⟨S_, .f32⟩ : BufTy).Contents (Elt F) → (⟨S800000, .f32⟩ : BufTy).Contents (Elt F)),
    nullary main_cst_0 (constant S_ .f32 0x00000000#32),
    unary main_cst_0 main_v6 (broadcastInDim S100000 ![] bcast_S_S100000 : (⟨S_, .f32⟩ : BufTy).Contents (Elt F) → (⟨S100000, .f32⟩ : BufTy).Contents (Elt F)),
    unary main_v3 main_v7 (broadcastInDim S800000x1 ![0] bcast_S800000_S800000x1_0 : (⟨S800000, .i32⟩ : BufTy).Contents (Elt F) → (⟨S800000x1, .i32⟩ : BufTy).Contents (Elt F)),
    ternary main_v6 main_v7 main_v5 main_v8 ((fun x i u => Host.scatterAdd scatter_S100000_S800000x1_S800000_n_0_0_1 x i u) : (⟨S100000, .f32⟩ : BufTy).Contents (Elt F) → (⟨S800000x1, .i32⟩ : BufTy).Contents (Elt F) → (⟨S800000, .f32⟩ : BufTy).Contents (Elt F) → (⟨S100000, .f32⟩ : BufTy).Contents (Elt F)),
    nullary main_cst_1 (constant S_ .f32 0x3F800000#32),
    unary main_cst_1 main_v9 (broadcastInDim S100000 ![] bcast_S_S100000 : (⟨S_, .f32⟩ : BufTy).Contents (Elt F) → (⟨S100000, .f32⟩ : BufTy).Contents (Elt F)),
    binary main_v8 main_v9 main_v10 (addf : (⟨S100000, .f32⟩ : BufTy).Contents (Elt F) → (⟨S100000, .f32⟩ : BufTy).Contents (Elt F) → (⟨S100000, .f32⟩ : BufTy).Contents (Elt F)),
    unary main_v10 main_v11 (Host.rsqrt : (⟨S100000, .f32⟩ : BufTy).Contents (Elt F) → (⟨S100000, .f32⟩ : BufTy).Contents (Elt F)),
    nullary main_c (constantI S_ 32 0#32),
    unary main_c main_v12 (broadcastInDim S800000 ![] bcast_S_S800000 : (⟨S_, .i32⟩ : BufTy).Contents (Elt F) → (⟨S800000, .i32⟩ : BufTy).Contents (Elt F)),
    binary main_v1 main_v12 main_v13 (cmpi .slt : (⟨S800000, .i32⟩ : BufTy).Contents (Elt F) → (⟨S800000, .i32⟩ : BufTy).Contents (Elt F) → (⟨S800000, .i1⟩ : BufTy).Contents (Elt F)),
    nullary main_c_2 (constantI S_ 32 100000#32),
    unary main_c_2 main_v14 (broadcastInDim S800000 ![] bcast_S_S800000 : (⟨S_, .i32⟩ : BufTy).Contents (Elt F) → (⟨S800000, .i32⟩ : BufTy).Contents (Elt F)),
    binary main_v1 main_v14 main_v15 (addi : (⟨S800000, .i32⟩ : BufTy).Contents (Elt F) → (⟨S800000, .i32⟩ : BufTy).Contents (Elt F) → (⟨S800000, .i32⟩ : BufTy).Contents (Elt F)),
    ternary main_v13 main_v15 main_v1 main_v16 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v16 main_v17 (broadcastInDim S800000x1 ![0] bcast_S800000_S800000x1_0 : (⟨S800000, .i32⟩ : BufTy).Contents (Elt F) → (⟨S800000x1, .i32⟩ : BufTy).Contents (Elt F)),
    binary main_v11 main_v17 main_v18 ((fun x i => Host.gather gather_S100000_S800000x1_S800000_n_0_n_n_0_1_1 x i) : (⟨S100000, .f32⟩ : BufTy).Contents (Elt F) → (⟨S800000x1, .i32⟩ : BufTy).Contents (Elt F) → (⟨S800000, .f32⟩ : BufTy).Contents (Elt F)),
    nullary main_c_3 (constantI S_ 32 0#32),
    unary main_c_3 main_v19 (broadcastInDim S800000 ![] bcast_S_S800000 : (⟨S_, .i32⟩ : BufTy).Contents (Elt F) → (⟨S800000, .i32⟩ : BufTy).Contents (Elt F)),
    binary main_v3 main_v19 main_v20 (cmpi .slt : (⟨S800000, .i32⟩ : BufTy).Contents (Elt F) → (⟨S800000, .i32⟩ : BufTy).Contents (Elt F) → (⟨S800000, .i1⟩ : BufTy).Contents (Elt F)),
    nullary main_c_4 (constantI S_ 32 100000#32),
    unary main_c_4 main_v21 (broadcastInDim S800000 ![] bcast_S_S800000 : (⟨S_, .i32⟩ : BufTy).Contents (Elt F) → (⟨S800000, .i32⟩ : BufTy).Contents (Elt F)),
    binary main_v3 main_v21 main_v22 (addi : (⟨S800000, .i32⟩ : BufTy).Contents (Elt F) → (⟨S800000, .i32⟩ : BufTy).Contents (Elt F) → (⟨S800000, .i32⟩ : BufTy).Contents (Elt F)),
    ternary main_v20 main_v22 main_v3 main_v23 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v23 main_v24 (broadcastInDim S800000x1 ![0] bcast_S800000_S800000x1_0 : (⟨S800000, .i32⟩ : BufTy).Contents (Elt F) → (⟨S800000x1, .i32⟩ : BufTy).Contents (Elt F)),
    binary main_v11 main_v24 main_v25 ((fun x i => Host.gather gather_S100000_S800000x1_S800000_n_0_n_n_0_1_1 x i) : (⟨S100000, .f32⟩ : BufTy).Contents (Elt F) → (⟨S800000x1, .i32⟩ : BufTy).Contents (Elt F) → (⟨S800000, .f32⟩ : BufTy).Contents (Elt F)),
    binary main_v18 main_v25 main_v26 (mulf : (⟨S800000, .f32⟩ : BufTy).Contents (Elt F) → (⟨S800000, .f32⟩ : BufTy).Contents (Elt F) → (⟨S800000, .f32⟩ : BufTy).Contents (Elt F)),
    nullary main_c_5 (constantI S_ 32 0#32),
    unary main_c_5 main_v27 (broadcastInDim S800000 ![] bcast_S_S800000 : (⟨S_, .i32⟩ : BufTy).Contents (Elt F) → (⟨S800000, .i32⟩ : BufTy).Contents (Elt F)),
    binary main_v1 main_v27 main_v28 (cmpi .slt : (⟨S800000, .i32⟩ : BufTy).Contents (Elt F) → (⟨S800000, .i32⟩ : BufTy).Contents (Elt F) → (⟨S800000, .i1⟩ : BufTy).Contents (Elt F)),
    nullary main_c_6 (constantI S_ 32 100000#32),
    unary main_c_6 main_v29 (broadcastInDim S800000 ![] bcast_S_S800000 : (⟨S_, .i32⟩ : BufTy).Contents (Elt F) → (⟨S800000, .i32⟩ : BufTy).Contents (Elt F)),
    binary main_v1 main_v29 main_v30 (addi : (⟨S800000, .i32⟩ : BufTy).Contents (Elt F) → (⟨S800000, .i32⟩ : BufTy).Contents (Elt F) → (⟨S800000, .i32⟩ : BufTy).Contents (Elt F)),
    ternary main_v28 main_v30 main_v1 main_v31 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v31 main_v32 (broadcastInDim S800000x1 ![0] bcast_S800000_S800000x1_0 : (⟨S800000, .i32⟩ : BufTy).Contents (Elt F) → (⟨S800000x1, .i32⟩ : BufTy).Contents (Elt F)),
    binary main_v4 main_v32 main_v33 ((fun x i => Host.gather gather_S100000x64_S800000x1_S800000x64_1_0_n_n_0_1_164 x i) : (⟨S100000x64, .f32⟩ : BufTy).Contents (Elt F) → (⟨S800000x1, .i32⟩ : BufTy).Contents (Elt F) → (⟨S800000x64, .f32⟩ : BufTy).Contents (Elt F)),
    unary main_v26 main_v34 (broadcastInDim S800000x1 ![0] bcast_S800000_S800000x1_0 : (⟨S800000, .f32⟩ : BufTy).Contents (Elt F) → (⟨S800000x1, .f32⟩ : BufTy).Contents (Elt F)),
    unary main_v34 main_v35 (broadcastInDim S800000x64 ![0, 1] bcast_S800000x1_S800000x64_0_1 : (⟨S800000x1, .f32⟩ : BufTy).Contents (Elt F) → (⟨S800000x64, .f32⟩ : BufTy).Contents (Elt F)),
    binary main_v33 main_v35 main_v36 (mulf : (⟨S800000x64, .f32⟩ : BufTy).Contents (Elt F) → (⟨S800000x64, .f32⟩ : BufTy).Contents (Elt F) → (⟨S800000x64, .f32⟩ : BufTy).Contents (Elt F)),
    nullary main_cst_7 (constant S_ .f32 0x00000000#32),
    unary main_cst_7 main_v37 (broadcastInDim S100000x64 ![] bcast_S_S100000x64 : (⟨S_, .f32⟩ : BufTy).Contents (Elt F) → (⟨S100000x64, .f32⟩ : BufTy).Contents (Elt F)),
    unary main_v3 main_v38 (broadcastInDim S800000x1 ![0] bcast_S800000_S800000x1_0 : (⟨S800000, .i32⟩ : BufTy).Contents (Elt F) → (⟨S800000x1, .i32⟩ : BufTy).Contents (Elt F)),
    ternary main_v37 main_v38 main_v36 main_v39 ((fun x i u => Host.scatterAdd scatter_S100000x64_S800000x1_S800000x64_1_0_0_1 x i u) : (⟨S100000x64, .f32⟩ : BufTy).Contents (Elt F) → (⟨S800000x1, .i32⟩ : BufTy).Contents (Elt F) → (⟨S800000x64, .f32⟩ : BufTy).Contents (Elt F) → (⟨S100000x64, .f32⟩ : BufTy).Contents (Elt F)),
    binary main_v11 main_v11 main_v40 (mulf : (⟨S100000, .f32⟩ : BufTy).Contents (Elt F) → (⟨S100000, .f32⟩ : BufTy).Contents (Elt F) → (⟨S100000, .f32⟩ : BufTy).Contents (Elt F)),
    unary main_v40 main_v41 (broadcastInDim S100000x1 ![0] bcast_S100000_S100000x1_0 : (⟨S100000, .f32⟩ : BufTy).Contents (Elt F) → (⟨S100000x1, .f32⟩ : BufTy).Contents (Elt F)),
    unary main_v41 main_v42 (broadcastInDim S100000x64 ![0, 1] bcast_S100000x1_S100000x64_0_1 : (⟨S100000x1, .f32⟩ : BufTy).Contents (Elt F) → (⟨S100000x64, .f32⟩ : BufTy).Contents (Elt F)),
    binary main_v4 main_v42 main_v43 (mulf : (⟨S100000x64, .f32⟩ : BufTy).Contents (Elt F) → (⟨S100000x64, .f32⟩ : BufTy).Contents (Elt F) → (⟨S100000x64, .f32⟩ : BufTy).Contents (Elt F)),
    binary main_v39 main_v43 main_v44 (addf : (⟨S100000x64, .f32⟩ : BufTy).Contents (Elt F) → (⟨S100000x64, .f32⟩ : BufTy).Contents (Elt F) → (⟨S100000x64, .f32⟩ : BufTy).Contents (Elt F)),
    unary main_arg3 main_v45 (broadcastInDim S1x64 ![1] bcast_S64_S1x64_1 : (⟨S64, .f32⟩ : BufTy).Contents (Elt F) → (⟨S1x64, .f32⟩ : BufTy).Contents (Elt F)),
    unary main_v45 main_v46 (broadcastInDim S100000x64 ![0, 1] bcast_S1x64_S100000x64_0_1 : (⟨S1x64, .f32⟩ : BufTy).Contents (Elt F) → (⟨S100000x64, .f32⟩ : BufTy).Contents (Elt F)),
    binary main_v44 main_v46 main_v47 (addf : (⟨S100000x64, .f32⟩ : BufTy).Contents (Elt F) → (⟨S100000x64, .f32⟩ : BufTy).Contents (Elt F) → (⟨S100000x64, .f32⟩ : BufTy).Contents (Elt F)) ]

/-- The clamp at zero and the second feature transform. -/
abbrev s3 : List (HloOp τ sig (Elt F)) :=
  [ TRef.nullary (TRef.of (T := ⟨S_, .f32⟩) main_call0_cst) (constant S_ .f32 0x00000000#32),
    TRef.unary (TRef.of (T := ⟨S_, .f32⟩) main_call0_cst) (TRef.of (T := ⟨S100000x64, .f32⟩) main_call0_v0) (broadcastInDim S100000x64 ![] bcast_S_S100000x64),
    TRef.binary (TRef.of (T := ⟨S100000x64, .f32⟩) main_v47) (TRef.of (T := ⟨S100000x64, .f32⟩) main_call0_v0) (TRef.of (T := ⟨S100000x64, .f32⟩) main_v48) maximumf,
    binary main_v48 main_arg4 main_v49 ((fun l r => Host.dotGeneral dot_S100000x64_S64x40_S100000x40_1_0_0_1_n_n none l r) : (⟨S100000x64, .f32⟩ : BufTy).Contents (Elt F) → (⟨S64x40, .f32⟩ : BufTy).Contents (Elt F) → (⟨S100000x40, .f32⟩ : BufTy).Contents (Elt F)) ]

/-- The second layer up to its pre-activation. -/
abbrev s4 : List (HloOp τ sig (Elt F)) :=
  [ nullary main_cst_8 (constant S_ .f32 0x3F800000#32),
    unary main_cst_8 main_v50 (broadcastInDim S800000 ![] bcast_S_S800000 : (⟨S_, .f32⟩ : BufTy).Contents (Elt F) → (⟨S800000, .f32⟩ : BufTy).Contents (Elt F)),
    nullary main_cst_9 (constant S_ .f32 0x00000000#32),
    unary main_cst_9 main_v51 (broadcastInDim S100000 ![] bcast_S_S100000 : (⟨S_, .f32⟩ : BufTy).Contents (Elt F) → (⟨S100000, .f32⟩ : BufTy).Contents (Elt F)),
    unary main_v3 main_v52 (broadcastInDim S800000x1 ![0] bcast_S800000_S800000x1_0 : (⟨S800000, .i32⟩ : BufTy).Contents (Elt F) → (⟨S800000x1, .i32⟩ : BufTy).Contents (Elt F)),
    ternary main_v51 main_v52 main_v50 main_v53 ((fun x i u => Host.scatterAdd scatter_S100000_S800000x1_S800000_n_0_0_1 x i u) : (⟨S100000, .f32⟩ : BufTy).Contents (Elt F) → (⟨S800000x1, .i32⟩ : BufTy).Contents (Elt F) → (⟨S800000, .f32⟩ : BufTy).Contents (Elt F) → (⟨S100000, .f32⟩ : BufTy).Contents (Elt F)),
    nullary main_cst_10 (constant S_ .f32 0x3F800000#32),
    unary main_cst_10 main_v54 (broadcastInDim S100000 ![] bcast_S_S100000 : (⟨S_, .f32⟩ : BufTy).Contents (Elt F) → (⟨S100000, .f32⟩ : BufTy).Contents (Elt F)),
    binary main_v53 main_v54 main_v55 (addf : (⟨S100000, .f32⟩ : BufTy).Contents (Elt F) → (⟨S100000, .f32⟩ : BufTy).Contents (Elt F) → (⟨S100000, .f32⟩ : BufTy).Contents (Elt F)),
    unary main_v55 main_v56 (Host.rsqrt : (⟨S100000, .f32⟩ : BufTy).Contents (Elt F) → (⟨S100000, .f32⟩ : BufTy).Contents (Elt F)),
    nullary main_c_11 (constantI S_ 32 0#32),
    unary main_c_11 main_v57 (broadcastInDim S800000 ![] bcast_S_S800000 : (⟨S_, .i32⟩ : BufTy).Contents (Elt F) → (⟨S800000, .i32⟩ : BufTy).Contents (Elt F)),
    binary main_v1 main_v57 main_v58 (cmpi .slt : (⟨S800000, .i32⟩ : BufTy).Contents (Elt F) → (⟨S800000, .i32⟩ : BufTy).Contents (Elt F) → (⟨S800000, .i1⟩ : BufTy).Contents (Elt F)),
    nullary main_c_12 (constantI S_ 32 100000#32),
    unary main_c_12 main_v59 (broadcastInDim S800000 ![] bcast_S_S800000 : (⟨S_, .i32⟩ : BufTy).Contents (Elt F) → (⟨S800000, .i32⟩ : BufTy).Contents (Elt F)),
    binary main_v1 main_v59 main_v60 (addi : (⟨S800000, .i32⟩ : BufTy).Contents (Elt F) → (⟨S800000, .i32⟩ : BufTy).Contents (Elt F) → (⟨S800000, .i32⟩ : BufTy).Contents (Elt F)),
    ternary main_v58 main_v60 main_v1 main_v61 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v61 main_v62 (broadcastInDim S800000x1 ![0] bcast_S800000_S800000x1_0 : (⟨S800000, .i32⟩ : BufTy).Contents (Elt F) → (⟨S800000x1, .i32⟩ : BufTy).Contents (Elt F)),
    binary main_v56 main_v62 main_v63 ((fun x i => Host.gather gather_S100000_S800000x1_S800000_n_0_n_n_0_1_1 x i) : (⟨S100000, .f32⟩ : BufTy).Contents (Elt F) → (⟨S800000x1, .i32⟩ : BufTy).Contents (Elt F) → (⟨S800000, .f32⟩ : BufTy).Contents (Elt F)),
    nullary main_c_13 (constantI S_ 32 0#32),
    unary main_c_13 main_v64 (broadcastInDim S800000 ![] bcast_S_S800000 : (⟨S_, .i32⟩ : BufTy).Contents (Elt F) → (⟨S800000, .i32⟩ : BufTy).Contents (Elt F)),
    binary main_v3 main_v64 main_v65 (cmpi .slt : (⟨S800000, .i32⟩ : BufTy).Contents (Elt F) → (⟨S800000, .i32⟩ : BufTy).Contents (Elt F) → (⟨S800000, .i1⟩ : BufTy).Contents (Elt F)),
    nullary main_c_14 (constantI S_ 32 100000#32),
    unary main_c_14 main_v66 (broadcastInDim S800000 ![] bcast_S_S800000 : (⟨S_, .i32⟩ : BufTy).Contents (Elt F) → (⟨S800000, .i32⟩ : BufTy).Contents (Elt F)),
    binary main_v3 main_v66 main_v67 (addi : (⟨S800000, .i32⟩ : BufTy).Contents (Elt F) → (⟨S800000, .i32⟩ : BufTy).Contents (Elt F) → (⟨S800000, .i32⟩ : BufTy).Contents (Elt F)),
    ternary main_v65 main_v67 main_v3 main_v68 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v68 main_v69 (broadcastInDim S800000x1 ![0] bcast_S800000_S800000x1_0 : (⟨S800000, .i32⟩ : BufTy).Contents (Elt F) → (⟨S800000x1, .i32⟩ : BufTy).Contents (Elt F)),
    binary main_v56 main_v69 main_v70 ((fun x i => Host.gather gather_S100000_S800000x1_S800000_n_0_n_n_0_1_1 x i) : (⟨S100000, .f32⟩ : BufTy).Contents (Elt F) → (⟨S800000x1, .i32⟩ : BufTy).Contents (Elt F) → (⟨S800000, .f32⟩ : BufTy).Contents (Elt F)),
    binary main_v63 main_v70 main_v71 (mulf : (⟨S800000, .f32⟩ : BufTy).Contents (Elt F) → (⟨S800000, .f32⟩ : BufTy).Contents (Elt F) → (⟨S800000, .f32⟩ : BufTy).Contents (Elt F)),
    nullary main_c_15 (constantI S_ 32 0#32),
    unary main_c_15 main_v72 (broadcastInDim S800000 ![] bcast_S_S800000 : (⟨S_, .i32⟩ : BufTy).Contents (Elt F) → (⟨S800000, .i32⟩ : BufTy).Contents (Elt F)),
    binary main_v1 main_v72 main_v73 (cmpi .slt : (⟨S800000, .i32⟩ : BufTy).Contents (Elt F) → (⟨S800000, .i32⟩ : BufTy).Contents (Elt F) → (⟨S800000, .i1⟩ : BufTy).Contents (Elt F)),
    nullary main_c_16 (constantI S_ 32 100000#32),
    unary main_c_16 main_v74 (broadcastInDim S800000 ![] bcast_S_S800000 : (⟨S_, .i32⟩ : BufTy).Contents (Elt F) → (⟨S800000, .i32⟩ : BufTy).Contents (Elt F)),
    binary main_v1 main_v74 main_v75 (addi : (⟨S800000, .i32⟩ : BufTy).Contents (Elt F) → (⟨S800000, .i32⟩ : BufTy).Contents (Elt F) → (⟨S800000, .i32⟩ : BufTy).Contents (Elt F)),
    ternary main_v73 main_v75 main_v1 main_v76 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v76 main_v77 (broadcastInDim S800000x1 ![0] bcast_S800000_S800000x1_0 : (⟨S800000, .i32⟩ : BufTy).Contents (Elt F) → (⟨S800000x1, .i32⟩ : BufTy).Contents (Elt F)),
    binary main_v49 main_v77 main_v78 ((fun x i => Host.gather gather_S100000x40_S800000x1_S800000x40_1_0_n_n_0_1_140 x i) : (⟨S100000x40, .f32⟩ : BufTy).Contents (Elt F) → (⟨S800000x1, .i32⟩ : BufTy).Contents (Elt F) → (⟨S800000x40, .f32⟩ : BufTy).Contents (Elt F)),
    unary main_v71 main_v79 (broadcastInDim S800000x1 ![0] bcast_S800000_S800000x1_0 : (⟨S800000, .f32⟩ : BufTy).Contents (Elt F) → (⟨S800000x1, .f32⟩ : BufTy).Contents (Elt F)),
    unary main_v79 main_v80 (broadcastInDim S800000x40 ![0, 1] bcast_S800000x1_S800000x40_0_1 : (⟨S800000x1, .f32⟩ : BufTy).Contents (Elt F) → (⟨S800000x40, .f32⟩ : BufTy).Contents (Elt F)),
    binary main_v78 main_v80 main_v81 (mulf : (⟨S800000x40, .f32⟩ : BufTy).Contents (Elt F) → (⟨S800000x40, .f32⟩ : BufTy).Contents (Elt F) → (⟨S800000x40, .f32⟩ : BufTy).Contents (Elt F)),
    nullary main_cst_17 (constant S_ .f32 0x00000000#32),
    unary main_cst_17 main_v82 (broadcastInDim S100000x40 ![] bcast_S_S100000x40 : (⟨S_, .f32⟩ : BufTy).Contents (Elt F) → (⟨S100000x40, .f32⟩ : BufTy).Contents (Elt F)),
    unary main_v3 main_v83 (broadcastInDim S800000x1 ![0] bcast_S800000_S800000x1_0 : (⟨S800000, .i32⟩ : BufTy).Contents (Elt F) → (⟨S800000x1, .i32⟩ : BufTy).Contents (Elt F)),
    ternary main_v82 main_v83 main_v81 main_v84 ((fun x i u => Host.scatterAdd scatter_S100000x40_S800000x1_S800000x40_1_0_0_1 x i u) : (⟨S100000x40, .f32⟩ : BufTy).Contents (Elt F) → (⟨S800000x1, .i32⟩ : BufTy).Contents (Elt F) → (⟨S800000x40, .f32⟩ : BufTy).Contents (Elt F) → (⟨S100000x40, .f32⟩ : BufTy).Contents (Elt F)),
    binary main_v56 main_v56 main_v85 (mulf : (⟨S100000, .f32⟩ : BufTy).Contents (Elt F) → (⟨S100000, .f32⟩ : BufTy).Contents (Elt F) → (⟨S100000, .f32⟩ : BufTy).Contents (Elt F)),
    unary main_v85 main_v86 (broadcastInDim S100000x1 ![0] bcast_S100000_S100000x1_0 : (⟨S100000, .f32⟩ : BufTy).Contents (Elt F) → (⟨S100000x1, .f32⟩ : BufTy).Contents (Elt F)),
    unary main_v86 main_v87 (broadcastInDim S100000x40 ![0, 1] bcast_S100000x1_S100000x40_0_1 : (⟨S100000x1, .f32⟩ : BufTy).Contents (Elt F) → (⟨S100000x40, .f32⟩ : BufTy).Contents (Elt F)),
    binary main_v49 main_v87 main_v88 (mulf : (⟨S100000x40, .f32⟩ : BufTy).Contents (Elt F) → (⟨S100000x40, .f32⟩ : BufTy).Contents (Elt F) → (⟨S100000x40, .f32⟩ : BufTy).Contents (Elt F)),
    binary main_v84 main_v88 main_v89 (addf : (⟨S100000x40, .f32⟩ : BufTy).Contents (Elt F) → (⟨S100000x40, .f32⟩ : BufTy).Contents (Elt F) → (⟨S100000x40, .f32⟩ : BufTy).Contents (Elt F)),
    unary main_arg5 main_v90 (broadcastInDim S1x40 ![1] bcast_S40_S1x40_1 : (⟨S40, .f32⟩ : BufTy).Contents (Elt F) → (⟨S1x40, .f32⟩ : BufTy).Contents (Elt F)),
    unary main_v90 main_v91 (broadcastInDim S100000x40 ![0, 1] bcast_S1x40_S100000x40_0_1 : (⟨S1x40, .f32⟩ : BufTy).Contents (Elt F) → (⟨S100000x40, .f32⟩ : BufTy).Contents (Elt F)),
    binary main_v89 main_v91 main_v92 (addf : (⟨S100000x40, .f32⟩ : BufTy).Contents (Elt F) → (⟨S100000x40, .f32⟩ : BufTy).Contents (Elt F) → (⟨S100000x40, .f32⟩ : BufTy).Contents (Elt F)) ]

/-- The row maximum of the pre-activation, folded from minus infinity. -/
abbrev s5a : List (HloOp τ sig (Elt F)) :=
  [ TRef.nullary (TRef.of (T := ⟨S_, .f32⟩) main_call1_cst) (constant S_ .f32 0xFF800000#32),
    TRef.binary (TRef.of (T := ⟨S100000x40, .f32⟩) main_v92) (TRef.of (T := ⟨S_, .f32⟩) main_call1_cst) (TRef.of (T := ⟨S100000, .f32⟩) main_call1_v0) (fun x v => Host.reduce FloatOps.maximumf x v reducesTo_S100000x40_S100000_d1 h_S_) ]

/-- One more maximum with minus infinity (jax's `initial`). -/
abbrev s5b : List (HloOp τ sig (Elt F)) :=
  [ TRef.nullary (TRef.of (T := ⟨S_, .f32⟩) main_call1_cst_0) (constant S_ .f32 0xFF800000#32),
    TRef.unary (TRef.of (T := ⟨S_, .f32⟩) main_call1_cst_0) (TRef.of (T := ⟨S100000, .f32⟩) main_call1_v1) (broadcastInDim S100000 ![] bcast_S_S100000),
    TRef.binary (TRef.of (T := ⟨S100000, .f32⟩) main_call1_v1) (TRef.of (T := ⟨S100000, .f32⟩) main_call1_v0) (TRef.of (T := ⟨S100000, .f32⟩) main_call1_v2) maximumf ]

/-- The maximum as a column, spread over the lanes, and the shift. -/
abbrev s5c : List (HloOp τ sig (Elt F)) :=
  [ TRef.unary (TRef.of (T := ⟨S100000, .f32⟩) main_call1_v2) (TRef.of (T := ⟨S100000x1, .f32⟩) main_call1_v3) (broadcastInDim S100000x1 ![0] bcast_S100000_S100000x1_0),
    TRef.unary (TRef.of (T := ⟨S100000x1, .f32⟩) main_call1_v3) (TRef.of (T := ⟨S100000x40, .f32⟩) main_call1_v4) (broadcastInDim S100000x40 ![0, 1] bcast_S100000x1_S100000x40_0_1),
    TRef.binary (TRef.of (T := ⟨S100000x40, .f32⟩) main_v92) (TRef.of (T := ⟨S100000x40, .f32⟩) main_call1_v4) (TRef.of (T := ⟨S100000x40, .f32⟩) main_call1_v5) subf ]

/-- The exponentials and their row sum from zero. -/
abbrev s5d : List (HloOp τ sig (Elt F)) :=
  [ TRef.unary (TRef.of (T := ⟨S100000x40, .f32⟩) main_call1_v5) (TRef.of (T := ⟨S100000x40, .f32⟩) main_call1_v6) Host.exp,
    TRef.nullary (TRef.of (T := ⟨S_, .f32⟩) main_call1_cst_1) (constant S_ .f32 0x00000000#32),
    TRef.binary (TRef.of (T := ⟨S100000x40, .f32⟩) main_call1_v6) (TRef.of (T := ⟨S_, .f32⟩) main_call1_cst_1) (TRef.of (T := ⟨S100000, .f32⟩) main_call1_v7) (fun x v => Host.reduceAdd x v reducesTo_S100000x40_S100000_d1 h_S_) ]

/-- The logarithm of the sum as a column, spread over the lanes, and the second shift. -/
abbrev s5e : List (HloOp τ sig (Elt F)) :=
  [ TRef.unary (TRef.of (T := ⟨S100000, .f32⟩) main_call1_v7) (TRef.of (T := ⟨S100000x1, .f32⟩) main_call1_v8) (broadcastInDim S100000x1 ![0] bcast_S100000_S100000x1_0),
    TRef.unary (TRef.of (T := ⟨S100000x1, .f32⟩) main_call1_v8) (TRef.of (T := ⟨S100000x1, .f32⟩) main_call1_v9) Host.log,
    TRef.unary (TRef.of (T := ⟨S100000x1, .f32⟩) main_call1_v9) (TRef.of (T := ⟨S100000x40, .f32⟩) main_call1_v10) (broadcastInDim S100000x40 ![0, 1] bcast_S100000x1_S100000x40_0_1),
    TRef.binary (TRef.of (T := ⟨S100000x40, .f32⟩) main_call1_v5) (TRef.of (T := ⟨S100000x40, .f32⟩) main_call1_v10) (TRef.of (T := ⟨S100000x40, .f32⟩) main_v93) subf ]

set_option maxRecDepth 65536 in
theorem ops_cut : (ops : List (HloOp τ sig (Elt F))) = s1 ++ (s2 ++ (s3 ++ (s4 ++ (s5a ++ (s5b ++ (s5c ++ (s5d ++ (s5e)))))))) := rfl

section Stretches

variable (W : Valuation τ sig (Elt F))
variable (x0 : (⟨S100000x64, .f32⟩ : BufTy).Contents (Elt F)) (x1 : (⟨S2x800000, .i32⟩ : BufTy).Contents (Elt F)) (x2 : (⟨S64x64, .f32⟩ : BufTy).Contents (Elt F)) (x3 : (⟨S64, .f32⟩ : BufTy).Contents (Elt F)) (x4 : (⟨S64x40, .f32⟩ : BufTy).Contents (Elt F)) (x5 : (⟨S40, .f32⟩ : BufTy).Contents (Elt F))

/-! ### No stretch writes an argument -/
theorem s1_arg0 : after s1 W (Proc.devRef .tc main_arg0) = W (Proc.devRef .tc main_arg0) := by after_results_simp <;> rfl
theorem s1_arg1 : after s1 W (Proc.devRef .tc main_arg1) = W (Proc.devRef .tc main_arg1) := by after_results_simp <;> rfl
theorem s1_arg2 : after s1 W (Proc.devRef .tc main_arg2) = W (Proc.devRef .tc main_arg2) := by after_results_simp <;> rfl
theorem s1_arg3 : after s1 W (Proc.devRef .tc main_arg3) = W (Proc.devRef .tc main_arg3) := by after_results_simp <;> rfl
theorem s1_arg4 : after s1 W (Proc.devRef .tc main_arg4) = W (Proc.devRef .tc main_arg4) := by after_results_simp <;> rfl
theorem s1_arg5 : after s1 W (Proc.devRef .tc main_arg5) = W (Proc.devRef .tc main_arg5) := by after_results_simp <;> rfl
theorem s2_arg0 : after s2 W (Proc.devRef .tc main_arg0) = W (Proc.devRef .tc main_arg0) := by after_results_simp <;> rfl
theorem s2_arg1 : after s2 W (Proc.devRef .tc main_arg1) = W (Proc.devRef .tc main_arg1) := by after_results_simp <;> rfl
theorem s2_arg2 : after s2 W (Proc.devRef .tc main_arg2) = W (Proc.devRef .tc main_arg2) := by after_results_simp <;> rfl
theorem s2_arg3 : after s2 W (Proc.devRef .tc main_arg3) = W (Proc.devRef .tc main_arg3) := by after_results_simp <;> rfl
theorem s2_arg4 : after s2 W (Proc.devRef .tc main_arg4) = W (Proc.devRef .tc main_arg4) := by after_results_simp <;> rfl
theorem s2_arg5 : after s2 W (Proc.devRef .tc main_arg5) = W (Proc.devRef .tc main_arg5) := by after_results_simp <;> rfl
theorem s3_arg0 : after s3 W (Proc.devRef .tc main_arg0) = W (Proc.devRef .tc main_arg0) := by after_results_simp <;> rfl
theorem s3_arg1 : after s3 W (Proc.devRef .tc main_arg1) = W (Proc.devRef .tc main_arg1) := by after_results_simp <;> rfl
theorem s3_arg2 : after s3 W (Proc.devRef .tc main_arg2) = W (Proc.devRef .tc main_arg2) := by after_results_simp <;> rfl
theorem s3_arg3 : after s3 W (Proc.devRef .tc main_arg3) = W (Proc.devRef .tc main_arg3) := by after_results_simp <;> rfl
theorem s3_arg4 : after s3 W (Proc.devRef .tc main_arg4) = W (Proc.devRef .tc main_arg4) := by after_results_simp <;> rfl
theorem s3_arg5 : after s3 W (Proc.devRef .tc main_arg5) = W (Proc.devRef .tc main_arg5) := by after_results_simp <;> rfl
theorem s4_arg0 : after s4 W (Proc.devRef .tc main_arg0) = W (Proc.devRef .tc main_arg0) := by after_results_simp <;> rfl
theorem s4_arg1 : after s4 W (Proc.devRef .tc main_arg1) = W (Proc.devRef .tc main_arg1) := by after_results_simp <;> rfl
theorem s4_arg2 : after s4 W (Proc.devRef .tc main_arg2) = W (Proc.devRef .tc main_arg2) := by after_results_simp <;> rfl
theorem s4_arg3 : after s4 W (Proc.devRef .tc main_arg3) = W (Proc.devRef .tc main_arg3) := by after_results_simp <;> rfl
theorem s4_arg4 : after s4 W (Proc.devRef .tc main_arg4) = W (Proc.devRef .tc main_arg4) := by after_results_simp <;> rfl
theorem s4_arg5 : after s4 W (Proc.devRef .tc main_arg5) = W (Proc.devRef .tc main_arg5) := by after_results_simp <;> rfl
theorem s5a_arg0 : after s5a W (Proc.devRef .tc main_arg0) = W (Proc.devRef .tc main_arg0) := by after_results_simp <;> rfl
theorem s5a_arg1 : after s5a W (Proc.devRef .tc main_arg1) = W (Proc.devRef .tc main_arg1) := by after_results_simp <;> rfl
theorem s5a_arg2 : after s5a W (Proc.devRef .tc main_arg2) = W (Proc.devRef .tc main_arg2) := by after_results_simp <;> rfl
theorem s5a_arg3 : after s5a W (Proc.devRef .tc main_arg3) = W (Proc.devRef .tc main_arg3) := by after_results_simp <;> rfl
theorem s5a_arg4 : after s5a W (Proc.devRef .tc main_arg4) = W (Proc.devRef .tc main_arg4) := by after_results_simp <;> rfl
theorem s5a_arg5 : after s5a W (Proc.devRef .tc main_arg5) = W (Proc.devRef .tc main_arg5) := by after_results_simp <;> rfl
theorem s5b_arg0 : after s5b W (Proc.devRef .tc main_arg0) = W (Proc.devRef .tc main_arg0) := by after_results_simp <;> rfl
theorem s5b_arg1 : after s5b W (Proc.devRef .tc main_arg1) = W (Proc.devRef .tc main_arg1) := by after_results_simp <;> rfl
theorem s5b_arg2 : after s5b W (Proc.devRef .tc main_arg2) = W (Proc.devRef .tc main_arg2) := by after_results_simp <;> rfl
theorem s5b_arg3 : after s5b W (Proc.devRef .tc main_arg3) = W (Proc.devRef .tc main_arg3) := by after_results_simp <;> rfl
theorem s5b_arg4 : after s5b W (Proc.devRef .tc main_arg4) = W (Proc.devRef .tc main_arg4) := by after_results_simp <;> rfl
theorem s5b_arg5 : after s5b W (Proc.devRef .tc main_arg5) = W (Proc.devRef .tc main_arg5) := by after_results_simp <;> rfl
theorem s5c_arg0 : after s5c W (Proc.devRef .tc main_arg0) = W (Proc.devRef .tc main_arg0) := by after_results_simp <;> rfl
theorem s5c_arg1 : after s5c W (Proc.devRef .tc main_arg1) = W (Proc.devRef .tc main_arg1) := by after_results_simp <;> rfl
theorem s5c_arg2 : after s5c W (Proc.devRef .tc main_arg2) = W (Proc.devRef .tc main_arg2) := by after_results_simp <;> rfl
theorem s5c_arg3 : after s5c W (Proc.devRef .tc main_arg3) = W (Proc.devRef .tc main_arg3) := by after_results_simp <;> rfl
theorem s5c_arg4 : after s5c W (Proc.devRef .tc main_arg4) = W (Proc.devRef .tc main_arg4) := by after_results_simp <;> rfl
theorem s5c_arg5 : after s5c W (Proc.devRef .tc main_arg5) = W (Proc.devRef .tc main_arg5) := by after_results_simp <;> rfl
theorem s5d_arg0 : after s5d W (Proc.devRef .tc main_arg0) = W (Proc.devRef .tc main_arg0) := by after_results_simp <;> rfl
theorem s5d_arg1 : after s5d W (Proc.devRef .tc main_arg1) = W (Proc.devRef .tc main_arg1) := by after_results_simp <;> rfl
theorem s5d_arg2 : after s5d W (Proc.devRef .tc main_arg2) = W (Proc.devRef .tc main_arg2) := by after_results_simp <;> rfl
theorem s5d_arg3 : after s5d W (Proc.devRef .tc main_arg3) = W (Proc.devRef .tc main_arg3) := by after_results_simp <;> rfl
theorem s5d_arg4 : after s5d W (Proc.devRef .tc main_arg4) = W (Proc.devRef .tc main_arg4) := by after_results_simp <;> rfl
theorem s5d_arg5 : after s5d W (Proc.devRef .tc main_arg5) = W (Proc.devRef .tc main_arg5) := by after_results_simp <;> rfl
theorem s5e_arg0 : after s5e W (Proc.devRef .tc main_arg0) = W (Proc.devRef .tc main_arg0) := by after_results_simp <;> rfl
theorem s5e_arg1 : after s5e W (Proc.devRef .tc main_arg1) = W (Proc.devRef .tc main_arg1) := by after_results_simp <;> rfl
theorem s5e_arg2 : after s5e W (Proc.devRef .tc main_arg2) = W (Proc.devRef .tc main_arg2) := by after_results_simp <;> rfl
theorem s5e_arg3 : after s5e W (Proc.devRef .tc main_arg3) = W (Proc.devRef .tc main_arg3) := by after_results_simp <;> rfl
theorem s5e_arg4 : after s5e W (Proc.devRef .tc main_arg4) = W (Proc.devRef .tc main_arg4) := by after_results_simp <;> rfl
theorem s5e_arg5 : after s5e W (Proc.devRef .tc main_arg5) = W (Proc.devRef .tc main_arg5) := by after_results_simp <;> rfl

/-! ### The edge lists and the first feature transform -/

theorem s1_v1 : after s1 W (Proc.devRef .tc main_v1) = val_main_v1 (F := F) (W (Proc.devRef .tc main_arg1)) := by
  after_results_simp <;> rfl
theorem s1_v3 : after s1 W (Proc.devRef .tc main_v3) = val_main_v3 (F := F) (W (Proc.devRef .tc main_arg1)) := by
  after_results_simp <;> rfl
theorem s1_v4 : after s1 W (Proc.devRef .tc main_v4) = val_main_v4 (F := F) (W (Proc.devRef .tc main_arg0)) (W (Proc.devRef .tc main_arg2)) := by
  after_results_simp <;> rfl

/-! ### The first layer's pre-activation -/

theorem s2_v47 (h1 : W (Proc.devRef .tc main_v1) = val_main_v1 (F := F) x1) (h3 : W (Proc.devRef .tc main_v3) = val_main_v3 (F := F) x1)
    (h4 : W (Proc.devRef .tc main_v4) = val_main_v4 (F := F) x0 x2) (ha3 : W (Proc.devRef .tc main_arg3) = x3) :
    after s2 W (Proc.devRef .tc main_v47) = val_main_v47 (F := F) x0 x1 x2 x3 := by
  after_results_simp
  rw [h1, h3, h4, ha3]
  rfl
theorem s2_v1 : after s2 W (Proc.devRef .tc main_v1) = W (Proc.devRef .tc main_v1) := by after_results_simp <;> rfl
theorem s2_v3 : after s2 W (Proc.devRef .tc main_v3) = W (Proc.devRef .tc main_v3) := by after_results_simp <;> rfl

/-! ### The clamp and the second feature transform -/

theorem s3_v49 (h47 : W (Proc.devRef .tc main_v47) = val_main_v47 (F := F) x0 x1 x2 x3) (ha4 : W (Proc.devRef .tc main_arg4) = x4) :
    after s3 W (Proc.devRef .tc main_v49) = val_main_v49 (F := F) x0 x1 x2 x3 x4 := by
  after_results_simp
  rw [h47, ha4]
  rfl
theorem s3_v1 : after s3 W (Proc.devRef .tc main_v1) = W (Proc.devRef .tc main_v1) := by after_results_simp <;> rfl
theorem s3_v3 : after s3 W (Proc.devRef .tc main_v3) = W (Proc.devRef .tc main_v3) := by after_results_simp <;> rfl

/-! ### The second layer's pre-activation -/

theorem s4_v92 (h1 : W (Proc.devRef .tc main_v1) = val_main_v1 (F := F) x1) (h3 : W (Proc.devRef .tc main_v3) = val_main_v3 (F := F) x1)
    (h49 : W (Proc.devRef .tc main_v49) = val_main_v49 (F := F) x0 x1 x2 x3 x4) (ha5 : W (Proc.devRef .tc main_arg5) = x5) :
    after s4 W (Proc.devRef .tc main_v92) = val_main_v92 (F := F) x0 x1 x2 x3 x4 x5 := by
  after_results_simp
  rw [h1, h3, h49, ha5]
  rfl

/-! ### The row-wise log-softmax -/

/-- The first piece with an arbitrary function in the reduction's place. -/
theorem s5a_any (f : (⟨S100000x40, .f32⟩ : BufTy).Contents (Elt F) → (⟨S_, .f32⟩ : BufTy).Contents (Elt F) → (⟨S100000, .f32⟩ : BufTy).Contents (Elt F)) :
    after [ TRef.nullary (TRef.of (T := ⟨S_, .f32⟩) main_call1_cst) (constant S_ .f32 0xFF800000#32),
      TRef.binary (TRef.of (T := ⟨S100000x40, .f32⟩) main_v92) (TRef.of (T := ⟨S_, .f32⟩) main_call1_cst) (TRef.of (T := ⟨S100000, .f32⟩) main_call1_v0) f ] W (Proc.devRef .tc main_call1_v0)
      = f (W (Proc.devRef .tc main_v92)) (constant S_ .f32 0xFF800000#32) := by
  after_results_simp
  rfl
theorem s5a_v0 (h92 : W (Proc.devRef .tc main_v92) = val_main_v92 (F := F) x0 x1 x2 x3 x4 x5) :
    after s5a W (Proc.devRef .tc main_call1_v0) = val_main_call1_v0 (F := F) x0 x1 x2 x3 x4 x5 :=
  (s5a_any W (fun x v => Host.reduce FloatOps.maximumf x v reducesTo_S100000x40_S100000_d1 h_S_)).trans (by rw [h92]; rfl)
theorem s5a_v92 : after s5a W (Proc.devRef .tc main_v92) = W (Proc.devRef .tc main_v92) := by after_results_simp <;> rfl

/-- The second piece with nothing known of the maximum it reads. -/
theorem s5b_any : after s5b W (Proc.devRef .tc main_call1_v2)
      = maximumf (broadcastInDim S100000 ![] bcast_S_S100000 (constant S_ .f32 0xFF800000#32)) (W (Proc.devRef .tc main_call1_v0)) := by
  after_results_simp
  rfl
theorem s5b_v2 (h0 : W (Proc.devRef .tc main_call1_v0) = val_main_call1_v0 (F := F) x0 x1 x2 x3 x4 x5) :
    after s5b W (Proc.devRef .tc main_call1_v2) = val_main_call1_v2 (F := F) x0 x1 x2 x3 x4 x5 :=
  (s5b_any W).trans (by rw [h0]; rfl)
theorem s5b_v92 : after s5b W (Proc.devRef .tc main_v92) = W (Proc.devRef .tc main_v92) := by after_results_simp <;> rfl

theorem s5c_v5 (h92 : W (Proc.devRef .tc main_v92) = val_main_v92 (F := F) x0 x1 x2 x3 x4 x5) (h2 : W (Proc.devRef .tc main_call1_v2) = val_main_call1_v2 (F := F) x0 x1 x2 x3 x4 x5) :
    after s5c W (Proc.devRef .tc main_call1_v5) = val_main_call1_v5 (F := F) x0 x1 x2 x3 x4 x5 := by
  after_results_simp
  rw [h92, h2]
  rfl

theorem s5d_v7 (h5 : W (Proc.devRef .tc main_call1_v5) = val_main_call1_v5 (F := F) x0 x1 x2 x3 x4 x5) :
    after s5d W (Proc.devRef .tc main_call1_v7) = val_main_call1_v7 (F := F) x0 x1 x2 x3 x4 x5 := by
  after_results_simp
  rw [h5]
  rfl
theorem s5d_v5 : after s5d W (Proc.devRef .tc main_call1_v5) = W (Proc.devRef .tc main_call1_v5) := by after_results_simp <;> rfl

theorem s5e_v93 (h5 : W (Proc.devRef .tc main_call1_v5) = val_main_call1_v5 (F := F) x0 x1 x2 x3 x4 x5) (h7 : W (Proc.devRef .tc main_call1_v7) = val_main_call1_v7 (F := F) x0 x1 x2 x3 x4 x5) :
    after s5e W (Proc.devRef .tc main_v93) = val_main_v93 (F := F) x0 x1 x2 x3 x4 x5 := by
  after_results_simp
  rw [h5, h7]
  rfl

end Stretches

/-- The result buffer after the whole list: the last stage function of the six arguments' contents. -/
theorem after_ops_v93 (W : Valuation τ sig (Elt F)) :
    after (ops (F := F)) W (Proc.devRef .tc main_v93)
      = val_main_v93 (F := F) (W (Proc.devRef .tc main_arg0)) (W (Proc.devRef .tc main_arg1)) (W (Proc.devRef .tc main_arg2))
          (W (Proc.devRef .tc main_arg3)) (W (Proc.devRef .tc main_arg4)) (W (Proc.devRef .tc main_arg5)) := by
  rw [ops_cut]
  simp only [after_append]
  have f1 := s1_v1 W
  have f3 := s1_v3 W
  have f4 := s1_v4 W
  have g47 := s2_v47 _ _ _ _ _ f1 f3 f4 (s1_arg3 W)
  have g1 := (s2_v1 _).trans f1
  have g3 := (s2_v3 _).trans f3
  have k49 := s3_v49 _ _ _ _ _ _ g47 ((s2_arg4 _).trans (s1_arg4 W))
  have k1 := (s3_v1 _).trans g1
  have k3 := (s3_v3 _).trans g3
  have l92 := s4_v92 _ _ _ _ _ _ _ k1 k3 k49 ((s3_arg5 _).trans ((s2_arg5 _).trans (s1_arg5 W)))
  have a0 := s5a_v0 _ _ _ _ _ _ _ l92
  have a92 := (s5a_v92 _).trans l92
  have b2 := s5b_v2 _ _ _ _ _ _ _ a0
  have b92 := (s5b_v92 _).trans a92
  have c5 := s5c_v5 _ _ _ _ _ _ _ b92 b2
  have d7 := s5d_v7 _ _ _ _ _ _ _ c5
  have d5 := (s5d_v5 _).trans c5
  exact s5e_v93 _ _ _ _ _ _ _ d5 d7

/-- Argument 0's buffer after the whole list is its launch contents. -/
theorem after_ops_arg0 (W : Valuation τ sig (Elt F)) : after (ops (F := F)) W (Proc.devRef .tc main_arg0) = W (Proc.devRef .tc main_arg0) := by
  rw [ops_cut]
  simp only [after_append]
  rw [s5e_arg0, s5d_arg0, s5c_arg0, s5b_arg0, s5a_arg0, s4_arg0, s3_arg0, s2_arg0, s1_arg0]
/-- Argument 1's buffer after the whole list is its launch contents. -/
theorem after_ops_arg1 (W : Valuation τ sig (Elt F)) : after (ops (F := F)) W (Proc.devRef .tc main_arg1) = W (Proc.devRef .tc main_arg1) := by
  rw [ops_cut]
  simp only [after_append]
  rw [s5e_arg1, s5d_arg1, s5c_arg1, s5b_arg1, s5a_arg1, s4_arg1, s3_arg1, s2_arg1, s1_arg1]
/-- Argument 2's buffer after the whole list is its launch contents. -/
theorem after_ops_arg2 (W : Valuation τ sig (Elt F)) : after (ops (F := F)) W (Proc.devRef .tc main_arg2) = W (Proc.devRef .tc main_arg2) := by
  rw [ops_cut]
  simp only [after_append]
  rw [s5e_arg2, s5d_arg2, s5c_arg2, s5b_arg2, s5a_arg2, s4_arg2, s3_arg2, s2_arg2, s1_arg2]
/-- Argument 3's buffer after the whole list is its launch contents. -/
theorem after_ops_arg3 (W : Valuation τ sig (Elt F)) : after (ops (F := F)) W (Proc.devRef .tc main_arg3) = W (Proc.devRef .tc main_arg3) := by
  rw [ops_cut]
  simp only [after_append]
  rw [s5e_arg3, s5d_arg3, s5c_arg3, s5b_arg3, s5a_arg3, s4_arg3, s3_arg3, s2_arg3, s1_arg3]
/-- Argument 4's buffer after the whole list is its launch contents. -/
theorem after_ops_arg4 (W : Valuation τ sig (Elt F)) : after (ops (F := F)) W (Proc.devRef .tc main_arg4) = W (Proc.devRef .tc main_arg4) := by
  rw [ops_cut]
  simp only [after_append]
  rw [s5e_arg4, s5d_arg4, s5c_arg4, s5b_arg4, s5a_arg4, s4_arg4, s3_arg4, s2_arg4, s1_arg4]
/-- Argument 5's buffer after the whole list is its launch contents. -/
theorem after_ops_arg5 (W : Valuation τ sig (Elt F)) : after (ops (F := F)) W (Proc.devRef .tc main_arg5) = W (Proc.devRef .tc main_arg5) := by
  rw [ops_cut]
  simp only [after_append]
  rw [s5e_arg5, s5d_arg5, s5c_arg5, s5b_arg5, s5a_arg5, s4_arg5, s3_arg5, s2_arg5, s1_arg5]

end Cert.ReferenceIdeal.Stages

end
-- ==== Proof.lean ====
/-
  The certificate of a two-layer graph convolution: a Pallas kernel program against its jnp reference, on the extended reals.

  Both programs compute, for node features `X`, edges `(src, dst)`, weights `W₁, W₂` and biases `b₁, b₂`,
      deg  = 1 + (number of edges into each node),   dinv = deg^(-1/2),   w(e) = dinv[src e] · dinv[dst e],
      layer(H, b)[i] = ∑_{e : dst e = i} w(e) · H[src e]  +  dinv[i]² · H[i]  +  b,
      out = log_softmax_rows ( layer( max(layer(X·W₁, b₁), 0) · W₂ , b₂) ).
  The reference is 130 host operations. The kernel program keeps the gathers and scatter-adds on the host and runs the
  two products `·W₁`, `·W₂` and the two tails (self-loop, bias, then the clamp or the log-softmax) as four pallas_call
  regions over ten row blocks each.

  * The frames of the two kernel programs are generated; the reference's is its run with the result dropped.
  * `preserves`: the ideal pass rewrote nothing, so the statement is `True`.
  * `algebraic`: each region leaves in its output array ONE whole-array function of the arrays it reads (the product, or the
    layer's tail; the ten blocks tile the rows and a row of the output depends on the same row of the inputs), and the
    reference's `dot_general`s, clamp and `log_softmax` are the same functions, index by index, on the extended reals (a
    sum over the 64 contracted coordinates whatever the operands' float format; a row maximum folded from `−∞`, where
    jax's extra `max` with `−∞` is absorbed; a row sum from zero). Between the regions both programs apply the same host
    operations to the same values, up to a reshape-versus-broadcast spelling of a column or a row. So the kernel's result
    buffer and the reference's end at one term of the arguments, `Stages.resultOf`. No step moves a factor across a sum or
    cancels a term, so the finiteness of the inputs is never used.
-/
import proofs.«132426_j6605659701280_1_alg».proof.Defs
import proofs.«132426_j6605659701280_1_alg».proof.Proof.Gen.Kernel
import proofs.«132426_j6605659701280_1_alg».proof.Proof.Gen.Kernel.Skeleton
import proofs.«132426_j6605659701280_1_alg».proof.Proof.Gen.Kernel.Launch
import proofs.«132426_j6605659701280_1_alg».proof.Proof.Gen.Kernel.Points
import proofs.«132426_j6605659701280_1_alg».proof.Proof.Gen.Kernel.Frame
import proofs.«132426_j6605659701280_1_alg».proof.Proof.Gen.KernelIdeal
import proofs.«132426_j6605659701280_1_alg».proof.Proof.Gen.KernelIdeal.Skeleton
import proofs.«132426_j6605659701280_1_alg».proof.Proof.Gen.KernelIdeal.Launch
import proofs.«132426_j6605659701280_1_alg».proof.Proof.Gen.KernelIdeal.Points
import proofs.«132426_j6605659701280_1_alg».proof.Proof.Gen.KernelIdeal.Frame
import proofs.«132426_j6605659701280_1_alg».proof.Proof.Gen.ReferenceIdeal
import proofs.«132426_j6605659701280_1_alg».proof.Proof.Gen.Pre_finite_inputs
import proofs.«132426_j6605659701280_1_alg».proof.Proof.KernelStages
import proofs.«132426_j6605659701280_1_alg».proof.Proof.RefStages
import Idealize.ShloMosaic.Adequacy
import Idealize.ShloMosaic.Init

noncomputable section

namespace Cert.Proof

open Idealize.ShloMosaic Idealize.SL.Sem Idealize.ShloMosaic.StableHlo

theorem frame_kernel : Cert.frame_Kernel := fun m ρ _ => Cert.Kernel.Gen.frame m ρ

theorem frame_kernelIdeal : Cert.frame_KernelIdeal := fun m ρ _ => Cert.KernelIdeal.Gen.frame m ρ

/-- The reference's run with the result dropped: no operation writes an argument. -/
theorem frame_referenceIdeal : Cert.frame_ReferenceIdeal := fun m ρ _ =>
  (θ_run Cert.ReferenceIdeal.defs _ _).mono (fun _ h c =>
    ⟨(h c _).trans (Cert.ReferenceIdeal.Stages.after_ops_arg0 _), (h c _).trans (Cert.ReferenceIdeal.Stages.after_ops_arg1 _),
     (h c _).trans (Cert.ReferenceIdeal.Stages.after_ops_arg2 _), (h c _).trans (Cert.ReferenceIdeal.Stages.after_ops_arg3 _),
     (h c _).trans (Cert.ReferenceIdeal.Stages.after_ops_arg4 _), (h c _).trans (Cert.ReferenceIdeal.Stages.after_ops_arg5 _)⟩)
    (Cert.ReferenceIdeal.ValueP.run_after (F := Ideal) m ρ)

/-- The ideal pass rewrote no operation. -/
theorem preserves : Cert.preserves_Kernel_KernelIdeal := trivial

/-- From memories agreeing on the six arguments both runs end with the result buffer at `Stages.resultOf` of the kernel's
    arguments: the kernel's by its seven boundaries, the reference's by its nine stretches and the agreement. -/
theorem algebraic : Cert.algebraic_KernelIdeal_ReferenceIdeal := by
  intro m ρ m' ρ' _ hagree
  refine ⟨fun c => Cert.KernelIdeal.Stages.resultOf m c, ?_, ?_⟩
  · exact (θ_run Cert.KernelIdeal.defs _ _).mono (fun r h c => ⟨(h c).1.trans (Cert.KernelIdeal.Stages.result_eq m ρ c), (h c).2⟩)
      (Cert.KernelIdeal.Result.run_result m ρ)
  · refine (θ_run Cert.ReferenceIdeal.defs _ _).mono (fun r h c =>
      ⟨?_, (h c _).trans (Cert.ReferenceIdeal.Stages.after_ops_arg0 _), (h c _).trans (Cert.ReferenceIdeal.Stages.after_ops_arg1 _),
       (h c _).trans (Cert.ReferenceIdeal.Stages.after_ops_arg2 _), (h c _).trans (Cert.ReferenceIdeal.Stages.after_ops_arg3 _),
       (h c _).trans (Cert.ReferenceIdeal.Stages.after_ops_arg4 _), (h c _).trans (Cert.ReferenceIdeal.Stages.after_ops_arg5 _)⟩)
      (Cert.ReferenceIdeal.ValueP.run_after (F := Ideal) m' ρ')
    refine ((h c Cert.ReferenceIdeal.main_v93).trans (Cert.ReferenceIdeal.Stages.after_ops_v93 _)).trans ?_
    obtain ⟨a0, a1, a2, a3, a4, a5⟩ := hagree c
    have e0 : launchContents m' c (Proc.devRef .tc Cert.ReferenceIdeal.main_arg0) = m ((c.tc : Thread Cert.KernelIdeal.nD Cert.KernelIdeal.τ).loc Cert.KernelIdeal.main_arg0) := a0
    have e1 : launchContents m' c (Proc.devRef .tc Cert.ReferenceIdeal.main_arg1) = m ((c.tc : Thread Cert.KernelIdeal.nD Cert.KernelIdeal.τ).loc Cert.KernelIdeal.main_arg1) := a1
    have e2 : launchContents m' c (Proc.devRef .tc Cert.ReferenceIdeal.main_arg2) = m ((c.tc : Thread Cert.KernelIdeal.nD Cert.KernelIdeal.τ).loc Cert.KernelIdeal.main_arg2) := a2
    have e3 : launchContents m' c (Proc.devRef .tc Cert.ReferenceIdeal.main_arg3) = m ((c.tc : Thread Cert.KernelIdeal.nD Cert.KernelIdeal.τ).loc Cert.KernelIdeal.main_arg3) := a3
    have e4 : launchContents m' c (Proc.devRef .tc Cert.ReferenceIdeal.main_arg4) = m ((c.tc : Thread Cert.KernelIdeal.nD Cert.KernelIdeal.τ).loc Cert.KernelIdeal.main_arg4) := a4
    have e5 : launchContents m' c (Proc.devRef .tc Cert.ReferenceIdeal.main_arg5) = m ((c.tc : Thread Cert.KernelIdeal.nD Cert.KernelIdeal.τ).loc Cert.KernelIdeal.main_arg5) := a5
    rw [e0, e1, e2, e3, e4, e5]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
